-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x8x1024 : Shape := ⟨3, ![4096, 8, 1024]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x8x1024 : S_.BroadcastsInDim S4096x8x1024 (![] : Fin 0 → Fin S4096x8x1024.rank)
  reducesTo_S4096x8x1024_S_d0_1_2 : S4096x8x1024.ReducesTo [0, 1, 2] S_

variable [Facts]

def fn {F : FTy → Type} [FloatOps F] (main_arg0 : FVec F S4096 .f32) (main_arg1 : FVec F S4096x8x1024 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x8x1024 .f32 := Host.absf main_arg1
  let main_cst_0 : FVec F S_ .f32 := constant S_ .f32 0x7F800000#32
  let main_v5 : FVec F S4096x8x1024 .f32 := broadcastInDim S4096x8x1024 ![] bcast_S_S4096x8x1024 main_cst_0
  let main_v6 : IVec S4096x8x1024 1 := cmpf .olt main_v4 main_v5
  let main_c_1 : IVec S_ 1 := constantI S_ 1 1#1
  let main_v7 : IVec S_ 1 := (fun x v => Host.reduce IntOp.andi x v reducesTo_S4096x8x1024_S_d0_1_2 h_S_) main_v6 main_c_1
  let main_v8 : IVec S_ 1 := andi main_v3 main_v7
  main_v8
-- ==== Kernel.lean ====
abbrev S4096 : Shape := ⟨1, ![4096]⟩
abbrev S4096x8x1024 : Shape := ⟨3, ![4096, 8, 1024]⟩
abbrev S256x8x1024 : Shape := ⟨3, ![256, 8, 1024]⟩
abbrev S256 : Shape := ⟨1, ![256]⟩
abbrev S256x1024 : Shape := ⟨2, ![256, 1024]⟩
abbrev S1x1 : Shape := ⟨2, ![1, 1]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1 : Shape := ⟨1, ![1]⟩
abbrev S_ : Shape := ⟨0, ![]⟩

abbrev nBuf : Space → Nat
  | .hbm => 15
  | .vmem => 14
  | .smem => 0
  | _ => 0

abbrev bufTy : (tb : Table) → Fin (tcTables nBuf tb) → BufTy
  | .hbm, ⟨0, _⟩ => ⟨S4096, .f32⟩
  | .hbm, ⟨1, _⟩ => ⟨S4096x8x1024, .f32⟩
  | .hbm, ⟨2, _⟩ => ⟨S4096, .f32⟩
  | .hbm, ⟨3, _⟩ => ⟨S1x1, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i1⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S256x8x1024, .f32⟩
  | .local _ .vmem, ⟨1, _⟩ => ⟨S256x8x1024, .f32⟩
  | .local _ .vmem, ⟨2, _⟩ => ⟨S256, .f32⟩
  | .local _ .vmem, ⟨3, _⟩ => ⟨S256, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S1x1, .f32⟩
  | .local _ .vmem, ⟨13, _⟩ => ⟨S1x1, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_call0_v0 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 8], ![false, false]⟩

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

class Facts₀ : Prop where
  inb_S256x8x1024_S256x8x1024_0_0_0 : ∀ a, (![0, 0, 0] : Fin 3 → Nat) a + S256x8x1024.size a ≤ S256x8x1024.size a
  h_S256x8x1024 : 0 < S256x8x1024.numel
  reduces_S256x8x1024_S256x1024 : S256x8x1024.Reduces [1] S256x1024
  reduces_S256x1024_S256 : S256x1024.Reduces [1] S256
  inb_S256_S256_0 : ∀ a, (![0] : Fin 1 → Nat) a + S256.size a ≤ S256.size a
  h_S256 : 0 < S256.numel
  inb_S1x1_S1x1_0_0 : ∀ a, (![0, 0] : Fin 2 → Nat) a + S1x1.size a ≤ S1x1.size a
  h_S1x1 : 0 < S1x1.numel
  inb_S512_S512_0 : ∀ a, (![0] : Fin 1 → Nat) a + S512.size a ≤ S512.size a
  h_S512 : 0 < S512.numel
  shapeCasts_S512_S512 : S512.ShapeCasts S512
  shapeCasts_S512_S512x1 : S512.ShapeCasts S512x1
  shapeCasts_S512_S1x512 : S512.ShapeCasts S1x512
  broadcasts_S1x512_S512x512 : S1x512.Broadcasts S512x512
  broadcasts_S512x1_S512x512 : S512x1.Broadcasts S512x512
  iota_S512x512_d0_w32 : S512x512.Iotas .tc 32 [0]
  iota_S512x512_d1_w32 : S512x512.Iotas .tc 32 [1]
  reduces_S512x512_S512 : S512x512.Reduces [1] S512
  reduces_S512x1_S1 : S512x1.Reduces [0] S1
  shapeCasts_S1_S1x1 : S1.ShapeCasts S1x1
  natLt_1_32 : 1 < 32
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8x1024.size a ≤ S4096x8x1024.size a
  hwx0_0 : ∀ i : grid0.Coords, EltTy.bits .f32 = 32 ∨ (Rect.block (s := S4096x8x1024) S256x8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S4096.size a
  hwx0_1 : ∀ i : grid0.Coords, EltTy.bits .f32 = 32 ∨ (Rect.block (s := S4096) S256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512.size a ≤ S4096.size a
  hwx1_0 : ∀ i : grid1.Coords, EltTy.bits .f32 = 32 ∨ (Rect.block (s := S4096) S512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512.size a ≤ S4096.size a
  hwx1_1 : ∀ i : grid1.Coords, EltTy.bits .f32 = 32 ∨ (Rect.block (s := S4096) S512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S4096.size a
  hwx1_2 : ∀ i : grid1.Coords, EltTy.bits .f32 = 32 ∨ (Rect.block (s := S4096) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S4096.size a
  hwx1_3 : ∀ i : grid1.Coords, EltTy.bits .f32 = 32 ∨ (Rect.block (s := S4096) S512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

abbrev win0_0 : Pipeline.Window sig grid0 :=
  Pipeline.Window.ofSpec (Memref.whole main_arg1) S256x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S1x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096 : Shape := ⟨1, ![4096]⟩
abbrev S4096x8x1024 : Shape := ⟨3, ![4096, 8, 1024]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096x8x1024, .f32⟩
  | .hbm, ⟨2, _⟩ => ⟨S_, .f32⟩
  | .hbm, ⟨3, _⟩ => ⟨S4096, .f32⟩
  | .hbm, ⟨4, _⟩ => ⟨S4096, .i32⟩
  | .hbm, ⟨5, _⟩ => ⟨S1x4096, .f32⟩
  | .hbm, ⟨6, _⟩ => ⟨S4096x1, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x1, .f32⟩
  | .hbm, ⟨14, _⟩ => ⟨S1x4096, .f32⟩
  | .hbm, ⟨15, _⟩ => ⟨S4096x4096, .f32⟩
  | .hbm, ⟨16, _⟩ => ⟨S4096x4096, .f32⟩
  | .hbm, ⟨17, _⟩ => ⟨S4096x4096, .i1⟩
  | .hbm, ⟨18, _⟩ => ⟨S4096x1, .i32⟩
  | .hbm, ⟨19, _⟩ => ⟨S1x4096, .i32⟩
  | .hbm, ⟨20, _⟩ => ⟨S4096x4096, .i32⟩
  | .hbm, ⟨21, _⟩ => ⟨S4096x4096, .i32⟩
  | .hbm, ⟨22, _⟩ => ⟨S4096x4096, .i1⟩
  | .hbm, ⟨23, _⟩ => ⟨S4096x4096, .i1⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S_, .f32⟩
  | .hbm, ⟨33, _⟩ => ⟨S4096x4096, .i32⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_call0_cst : Ref sig .tc := ⟨.hbm, 24, rfl⟩
abbrev main_call0_v0 : Ref sig .tc := ⟨.hbm, 25, rfl⟩
abbrev main_v20 : Ref sig .tc := ⟨.hbm, 26, rfl⟩
abbrev main_cst_1 : Ref sig .tc := ⟨.hbm, 27, rfl⟩
abbrev main_call1_v0 : Ref sig .tc := ⟨.hbm, 28, rfl⟩
abbrev main_call1_v1 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_c : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_call2_v0 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  reducesTo_S4096x8x1024_S4096_d1_2 : S4096x8x1024.ReducesTo [1, 2] S4096
  h_S_ : 0 < S_.numel
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  natLt_1_32 : 1 < 32

variable [Facts₀]

class Facts : Prop extends Facts₀ where

variable [Facts]
-- ==== Proof.K.Dat0.lean ====
/-
  Region 0 (the gains kernel): the proof data of its pipeline at the buffer contents `V` the region is entered with.

  The grid has 16 points; point `t` fetches block `t` (256 samples of 8 × 1024 entries) of the input array into
  window 0 and writes window 1's 256 sums back as block `t` of the output array. The body loads the whole input
  block, adds up the two inner axes, and stores the 256 sums over the whole output block.
-/
import proofs.«115636_j33612414058531_1_alg».proof.Proof.Gen.Kernel.Launch
import proofs.«115636_j33612414058531_1_alg».proof.Proof.Gen.Kernel.Skeleton
import proofs.«115636_j33612414058531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole input block: the body's one load of window 0. -/
abbrev r0_0 : Rect S256x8x1024 := Rect.unit (s := S256x8x1024) ![0, 0, 0] S256x8x1024.size inb_S256x8x1024_S256x8x1024_0_0_0
/-- The whole output block: the body's one store to window 1. -/
abbrev r0_1 : Rect S256 := Rect.unit (s := S256) ![0] S256.size inb_S256_S256_0

/-! ## What the body leaves in the output window's buffer -/

/-- Window 1's staging buffer after the body, from the input window's block: its one store as a piece, the payload
    the two sums over the inner axes of the loaded block. -/
def out0_1 (x0 : Vec F S256x8x1024 .f32) : Vec F S256 .f32 :=
  View.canon [⟨r0_1, k0_pay1 (View.ld x0 r0_0)⟩]

/-! ## The pipeline's proof data -/

/-- The proof data of pipeline 0 on core `c`: the arrays as the region finds them (`V`); after the body at point
    `t` the input's buffer at its block and the output's at `out0_1` of the input block; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

end Cert.Kernel.Hand

end
-- ==== Proof.K.Dat1.lean ====
/-
  The second region (the pairwise tiles), as the pipeline's proof data at the buffers' contents `V` the region is
  entered with.

  The grid is 8 × 8; point t works on the tile (t / 8, t % 8) of the implicit 4096 × 4096 matrix of pairs. Its four input
  windows are blocks of 512: the gains' row block and column block (two windows on ONE array, the first region's
  result) and the norms' row block and column block (two windows on one argument array). Its two outputs are 1 × 1
  accumulators whose block never moves: they are written back once, after the last point, so at every point but the
  first the body finds in them what the point before left. The body zeroes both at the first point and then, at every
  point, adds the tile's total (its count) to what it finds.

  Because two windows read one array, each of the four input windows holds HALF of its array (the left half for the
  row window, the right half for the column window); the outputs' arrays are held whole.
-/
import proofs.«115636_j33612414058531_1_alg».proof.Proof.Gen.Kernel.Launch
import proofs.«115636_j33612414058531_1_alg».proof.Proof.Gen.Kernel.Skeleton
import proofs.«115636_j33612414058531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the running total: what it found plus the tile's total, from the gains' row and column
    blocks and the norms' row and column blocks. -/
def step1_4 (i : grid1.Coords) (x0 x1 x2 x3 : Vec F S512 .f32) (prev : Vec F S1x1 .f32) : Vec F S1x1 .f32 :=
  k1_pay1 (k1_pay6 i x0 x1 x2 x3) prev

/-- One point's update of the running count: what it found plus the number of counting pairs of the tile. -/
def step1_5 (i : grid1.Coords) (x2 x3 : Vec F S512 .f32) (prev : Vec F S1x1 .f32) : Vec F S1x1 .f32 :=
  k1_pay2 (k1_pay7 i x2 x3) prev

/-- The running total after point `n`: from zero at the first point, each point adding its tile. -/
def acc1_4 (c : Dev nD) : (n : ℕ) → n < cfg1.N → Vec F S1x1 .f32
  | 0, hn => step1_4 (grid1.coords ⟨0, hn⟩) (iblk1 V c 0 ⟨0, hn⟩) (iblk1 V c 1 ⟨0, hn⟩) (iblk1 V c 2 ⟨0, hn⟩) (iblk1 V c 3 ⟨0, hn⟩) (k1_pay3 (F := F))
  | n + 1, hn => step1_4 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (acc1_4 c n (Nat.lt_of_succ_lt hn))

/-- The running count after point `n`. -/
def acc1_5 (c : Dev nD) : (n : ℕ) → n < cfg1.N → Vec F S1x1 .f32
  | 0, hn => step1_5 (grid1.coords ⟨0, hn⟩) (iblk1 V c 2 ⟨0, hn⟩) (iblk1 V c 3 ⟨0, hn⟩) (k1_pay4 (F := F))
  | n + 1, hn => step1_5 (grid1.coords ⟨n + 1, hn⟩) (iblk1 V c 2 ⟨n + 1, hn⟩) (iblk1 V c 3 ⟨n + 1, hn⟩) (acc1_5 c n (Nat.lt_of_succ_lt hn))

/-- The running total at the first point and at a later one. -/
theorem acc1_4_zero (c : Dev nD) (t : Fin cfg1.N) (h0 : t.val = 0) :
    acc1_4 V c t.val t.isLt = step1_4 (grid1.coords t) (iblk1 V c 0 t) (iblk1 V c 1 t) (iblk1 V c 2 t) (iblk1 V c 3 t) (k1_pay3 (F := F)) := by
  obtain ⟨n, hn⟩ := t
  cases n with
  | zero => rfl
  | succ n => exact absurd h0 (Nat.succ_ne_zero n)
theorem acc1_4_succ (c : Dev nD) (t : Fin cfg1.N) (h0 : t.val ≠ 0) :
    acc1_4 V c t.val t.isLt = step1_4 (grid1.coords t) (iblk1 V c 0 t) (iblk1 V c 1 t) (iblk1 V c 2 t) (iblk1 V c 3 t)
      (acc1_4 V c (t.val - 1) (Nat.lt_of_le_of_lt (Nat.sub_le _ _) t.isLt)) := by
  obtain ⟨n, hn⟩ := t
  cases n with
  | zero => exact absurd rfl h0
  | succ n => rfl
theorem acc1_5_zero (c : Dev nD) (t : Fin cfg1.N) (h0 : t.val = 0) :
    acc1_5 V c t.val t.isLt = step1_5 (grid1.coords t) (iblk1 V c 2 t) (iblk1 V c 3 t) (k1_pay4 (F := F)) := by
  obtain ⟨n, hn⟩ := t
  cases n with
  | zero => rfl
  | succ n => exact absurd h0 (Nat.succ_ne_zero n)
theorem acc1_5_succ (c : Dev nD) (t : Fin cfg1.N) (h0 : t.val ≠ 0) :
    acc1_5 V c t.val t.isLt = step1_5 (grid1.coords t) (iblk1 V c 2 t) (iblk1 V c 3 t)
      (acc1_5 V c (t.val - 1) (Nat.lt_of_le_of_lt (Nat.sub_le _ _) t.isLt)) := by
  obtain ⟨n, hn⟩ := t
  cases n with
  | zero => exact absurd rfl h0
  | succ n => rfl

/-- The proof data of the second pipeline on core `c`: the arrays as the region finds them; after the body at point
    `t` each input's buffer at its block, the two accumulators at the running total and count; the invariant the scoped
    rest and the generator register, untouched; nothing owed; each input window half of its array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1_4 V c t.val t.isLt
    | ⟨5, _⟩ => acc1_5 V c t.val t.isLt
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1_4 V c t.val t.isLt := by dsimp only [dat1]
theorem after1_5 (c : Dev nD) (t : Fin cfg1.N) : (dat1 V c).after 5 t = acc1_5 V c t.val t.isLt := by dsimp only [dat1]

end Cert.Kernel.Hand

end
-- ==== Proof.K.Chain.lean ====
import proofs.«115636_j33612414058531_1_alg».proof.Proof.Gen.Kernel.Launch
import proofs.«115636_j33612414058531_1_alg».proof.Proof.Gen.Kernel.Skeleton
import proofs.«115636_j33612414058531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115636_j33612414058531_1_alg».proof.Proof.Gen.Kernel.Regions
import proofs.«115636_j33612414058531_1_alg».proof.Proof.K.Dat0
import proofs.«115636_j33612414058531_1_alg».proof.Proof.K.Dat1
set_option maxRecDepth 16384

/-
  What the buffers hold between the program's items, with the regions' results named.

  The first region leaves the gains in its result array: what its write-backs make of that array, block by block
  (the proof data's `arrAt` after the last point). The second region is entered with that array in place and leaves
  its two 1 × 1 results; every other buffer passes through both regions untouched. These are the contents the
  conditional run of the whole program is instantiated at.
-/
noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The first region is entered with the launch contents. -/
abbrev U0 : (c : Dev nD) → (b : Ref sig .tc) → Buf (Elt F) ((c : Thread nD τ).loc b) := fun c b => Gen.V0 m c b

/-- After the first region: its result array at what the write-backs leave, all else as launched. -/
def W1 (c : Dev nD) : Valuation τ sig (Elt F) :=
  Function.update (Gen.V0 m c) main_v0 ((dat0 (U0 m) c).arrAt 1 cfg0.N)

/-- The second region is entered with those contents. -/
abbrev U1 : (c : Dev nD) → (b : Ref sig .tc) → Buf (Elt F) ((c : Thread nD τ).loc b) := fun c b => W1 m c b

/-- After the second region: its two results at what the one write-back of each leaves. -/
def W2 (c : Dev nD) : Valuation τ sig (Elt F) :=
  Function.update (Function.update (W1 m c) main_v1_0 ((dat1 (U1 m) c).arrAt 4 cfg1.N)) main_v1_1 ((dat1 (U1 m) c).arrAt 5 cfg1.N)

/-- What the regions leave, read wherever the conditional run asks: the contents after both. -/
def outs : Gen.Outs (F := F) := fun _ r c => W2 m c r

theorem W2_main_v0 (c : Dev nD) : W2 m c main_v0 = W1 m c main_v0 := by
  unfold W2
  rw [Function.update_of_ne (StableHlo.devRef_ne_of_ne (by decide) : (Proc.devRef .tc main_v0 : DevRef τ sig) ≠ Proc.devRef .tc main_v1_1),
    Function.update_of_ne (StableHlo.devRef_ne_of_ne (by decide) : (Proc.devRef .tc main_v0 : DevRef τ sig) ≠ Proc.devRef .tc main_v1_0)]

theorem W1_main_v0 (c : Dev nD) : W1 m c main_v0 = (dat0 (U0 m) c).arrAt 1 cfg0.N := by
  unfold W1; exact Function.update_self ..

/-- The generated contents after the first region, at these results, are `W1`. -/
theorem V1_eq (c : Dev nD) : Gen.V1 m (outs m) c = W1 m c := by
  show Function.update (Gen.V0 m c) main_v0 (W2 m c main_v0) = W1 m c
  rw [W2_main_v0, W1_main_v0]; rfl

theorem W2_main_v1_1 (c : Dev nD) : W2 m c main_v1_1 = (dat1 (U1 m) c).arrAt 5 cfg1.N := by
  unfold W2; exact Function.update_self ..

theorem W2_main_v1_0 (c : Dev nD) : W2 m c main_v1_0 = (dat1 (U1 m) c).arrAt 4 cfg1.N := by
  unfold W2
  rw [Function.update_of_ne (StableHlo.devRef_ne_of_ne (by decide) : (Proc.devRef .tc main_v1_0 : DevRef τ sig) ≠ Proc.devRef .tc main_v1_1)]
  exact Function.update_self ..

/-- The generated contents after the second region, at these results, are `W2`. -/
theorem V2_eq (c : Dev nD) : Gen.V2 m (outs m) c = W2 m c := by
  show Function.update (Function.update (Gen.V1 m (outs m) c) main_v1_0 (W2 m c main_v1_0)) main_v1_1 (W2 m c main_v1_1) = W2 m c
  rw [V1_eq, W2_main_v1_0, W2_main_v1_1]; rfl

/-- Every pipeline's proof data, each at its region's entry contents — a literal match on the pipeline. -/
def pdats : (p : Fin 2) → (c : Dev nD) → Dat τ (Elt F) Unit ℕ (UR sig nD τ) ℕ (cfgs p) c
  | ⟨0, _⟩ => fun c => dat0 (U0 m) c
  | ⟨1, _⟩ => fun c => dat1 (U1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

end Cert.Kernel.Hand

end
-- ==== Proof.K.Body0.lean ====
/-
  Region 0 (the gains kernel): the body's triple and the pipeline's body obligation at the proof data `dat0`.
-/
import proofs.«115636_j33612414058531_1_alg».proof.Proof.K.Dat0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one store tiles the output buffer, so it covers it. -/
theorem cover0_1 (p0 : Vec F S256 .f32) (y : S256.Idx) :
    ∃ pc ∈ ([⟨r0_1, p0⟩] : List (View.Piece (Elt F) S256 .f32)), y ∈ pc.1.set :=
  View.cover_of_tiled [⟨r0_1, p0⟩] S256.size (by rfl) y

set_option maxHeartbeats 1000000 in
/-- The kernel body on whole staging memrefs, the input's at read contents `x0` and the output's at anything, runs to
    the continuation holding the input's as it was and the output's at `out0_1 x0`. The body also loads the output
    buffer before storing it; that value is not used. -/
theorem sound_kernel0 (c : Dev nD) (E : Set ℕ) (i : grid0.Coords) (arg1 : Memref sig .tc .vmem S256x8x1024 .f32) (harg1 : arg1.IsWhole) (arg2 : Memref sig .tc .vmem S256 .f32) (harg2 : arg2.IsWhole)
    (x0 : Vec F S256x8x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__gains_kernel i arg1 harg1 arg2 harg2) K := by
  simp only [cc0__gains_kernel_eq_skeleton]; unfold cc0__gains_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg0.lean ====
/-
  Region 0 (the gains kernel) as a segment of the whole program's run.

  The region is entered with every unscoped buffer at the launch contents and left with the gains array at what the
  write-backs make of it, every other buffer as it was. Its two arrays (the input samples and the gains) are split
  out of the unscoped buffers at the entry and put back at the exit contents; the generator register goes into the
  pipeline's invariant and comes back; nothing is owed; the kernel has no semaphore of its own.
-/
import proofs.«115636_j33612414058531_1_alg».proof.Proof.K.Chain
import proofs.«115636_j33612414058531_1_alg».proof.Proof.K.Body0
import proofs.«115636_j33612414058531_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The contents at the region's exit -/

/-- The contents after the first region, read at the TensorCore's references. -/
abbrev X1 : (c : Dev nD) → (b : Ref sig .tc) → Buf (Elt F) ((c : Thread nD τ).loc b) := fun c b => Gen.V1 m (outs m) c b

/-- At the exit each array of the region holds what the pipeline leaves: the input array is never written, so it
    holds what it held at the entry; the gains array holds what the write-backs make of it, by the choice of the
    results. -/
theorem hF0 (c : Dev nD) : ∀ w : Fin cfg0.W, (dat0 (U0 m) c).arrAt w cfg0.N = X1 m c (Pipeline.arrRef spec0 w)
  | ⟨0, _⟩ => (((dat0 (U0 m) c).arrAt_in 0 rfl _).trans (A_eq0 (U0 m) c 0)).trans (Gen.V1_of m (outs m) c main_arg1 (by decide)).symm
  | ⟨1, _⟩ => ((congrFun (V1_eq m c) (Proc.devRef .tc main_v0)).trans (W1_main_v0 m c)).symm

/-- Every buffer that is no array of the region holds at the exit what it held at the entry. -/
theorem hrest0 (c : Dev nD) : ∀ b, b ∉ Finset.univ.image (Pipeline.arrRef spec0) → X1 m c b = U0 m c b :=
  fun b hb => Gen.V1_of m (outs m) c b fun h => by
    rw [List.mem_singleton] at h
    exact hb (Finset.mem_image.mpr ⟨1, Finset.mem_univ _, h.symm⟩)

/-! ## The region as a segment -/

-- a library lemma stated over the pinned configuration unifies with the printed one only when unification may
-- unfold plain definitions in a metavariable's type
set_option backward.isDefEq.respectTransparency.types false in
/-- Region 0 over the thread state: entered from every unscoped buffer at the launch contents, left at the contents
    after the first region. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U0 m c) (X1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region is entered from the thread state the run hands it: every unscoped buffer at the launch contents. -/
theorem hpre0 : ∀ c : Dev nD, iprop(StableHlo.held (c : Thread nD τ) (Pipeline.ucRefs τ sig) (Gen.V0 m c) ∗ R (F := F) c) ⊢ (reg0 m).pre c :=
  fun _ => .rfl

/-- It leaves the thread state the next item is entered from: every unscoped buffer at the contents after it. -/
theorem hpost0 : ∀ c : Dev nD, (reg0 m).post c ⊢ iprop(StableHlo.held (c : Thread nD τ) (Pipeline.ucRefs τ sig) (Gen.V1 m (outs m) c) ∗ R (F := F) c) :=
  fun _ => .rfl

end Cert.Kernel.Hand

end
-- ==== Proof.K.Body1.lean ====
import proofs.«115636_j33612414058531_1_alg».proof.Proof.Gen.Kernel.Launch
import proofs.«115636_j33612414058531_1_alg».proof.Proof.Gen.Kernel.Skeleton
import proofs.«115636_j33612414058531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115636_j33612414058531_1_alg».proof.Proof.K.Dat1
import Idealize.ShloMosaic.Lib.Pipeline.Value
set_option maxRecDepth 16384

/-
  The second region's body at every grid point.

  The body has one branch: at the first point (both grid coordinates zero) it stores zero into both accumulators before
  anything else. After that, at every point, it loads the four input blocks, forms the tile's total and count, and
  stores "what the accumulator holds + the tile's share" into each accumulator. So at the first point the accumulators
  end at zero + tile, whatever they held, and at a later point at what the point before left + tile: the running
  total and count of the proof data. The inputs' buffers are only read.
-/
noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The condition of the body's zeroing branch, from the grid coordinates. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only — decided over the 64 points. -/
theorem hcond1_0 : ∀ t : Fin cfg1.N, cond1_0 (grid1.coords t) ↔ t.val = 0 :=
  (by decide +kernel : ∀ t : Fin grid1.N, cond1_0 (grid1.coords t) ↔ t.val = 0)

theorem hz1x1 : (![0, 0] : Fin S1x1.rank → Nat) = fun _ => 0 := by
  funext a; match a with | ⟨0, _⟩ => rfl | ⟨1, _⟩ => rfl
theorem hz512 : (![0] : Fin S512.rank → Nat) = fun _ => 0 := by
  funext a; match a with | ⟨0, _⟩ => rfl

/-- A single store through the whole 1 × 1 rectangle covers the buffer. -/
theorem cover1x1 (p0 : Vec F S1x1 .f32) (L : List (View.Piece (Elt F) S1x1 .f32)) (y : S1x1.Idx) :
    ∃ pc ∈ ((⟨Rect.unit (s := S1x1) ![0, 0] S1x1.size inb_S1x1_S1x1_0_0, p0⟩ : View.Piece (Elt F) S1x1 .f32) :: L), y ∈ pc.1.set :=
  ⟨_, List.mem_cons_self .., (View.cover_of_tiled [⟨Rect.unit (s := S1x1) ![0, 0] S1x1.size inb_S1x1_S1x1_0_0, p0⟩] S1x1.size (by rfl) y).elim
    fun pc h => by have := List.mem_singleton.mp h.1; subst this; exact h.2⟩

set_option maxHeartbeats 2000000 in
/-- At a later point: the accumulators hold the running total and count `p4`, `p5`; the body leaves each at its update. -/
theorem sound_kernel1_B (c : Dev nD) (E : Set ℕ) (i : grid1.Coords)
    (arg2 : Memref sig .tc .vmem S512 .f32) (harg2 : arg2.IsWhole) (arg3 : Memref sig .tc .vmem S512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (arg7 : Memref sig .tc .vmem S1x1 .f32) (harg7 : arg7.IsWhole)
    (hc0 : ¬ cond1_0 i)
    (x0 x1 x2 x3 : Vec F S512 .f32) (p4 p5 : Vec F S1x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare p4 ∗ owns (c : Thread nD τ) arg7 fullShare p5
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (step1_4 i x0 x1 x2 x3 p4)
            ∗ owns (c : Thread nD τ) arg7 fullShare (step1_5 i x2 x3 p5)) -∗ K ⟨⟩))
      ⊢ wp frame (wpE (defs₀ (F := F)) Variants.none c none) E (cc1__pairwise_kernel i arg2 harg2 arg3 harg3 arg4 harg4 arg5 harg5 arg6 harg6 arg7 harg7) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    rw [View.read_writes_eq_canon _ _ _ (cover1x1 _ []), View.canon_unit_zero hz1x1]
    unfold step1_4
    sl_unfold_run_names
    simp only [View.readAt_eq_ld, View.ld_unit_zero (S := S1x1) hz1x1, View.ld_unit_zero (S := S512) hz512]
  · iexists _; isplitr
    swap; · iexact H5
    ipureintro
    rw [View.read_writes_eq_canon _ _ _ (cover1x1 _ []), View.canon_unit_zero hz1x1]
    unfold step1_5
    sl_unfold_run_names
    simp only [View.readAt_eq_ld, View.ld_unit_zero (S := S1x1) hz1x1, View.ld_unit_zero (S := S512) hz512]

set_option maxHeartbeats 2000000 in
/-- At the first point: the accumulators hold anything; the body zeroes them and leaves each at zero + its tile's share. -/
theorem sound_kernel1_A (c : Dev nD) (E : Set ℕ) (i : grid1.Coords)
    (arg2 : Memref sig .tc .vmem S512 .f32) (harg2 : arg2.IsWhole) (arg3 : Memref sig .tc .vmem S512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (arg7 : Memref sig .tc .vmem S1x1 .f32) (harg7 : arg7.IsWhole)
    (hc0 : cond1_0 i)
    (x0 x1 x2 x3 : Vec F S512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (step1_4 i x0 x1 x2 x3 (k1_pay3 (F := F)))
            ∗ owns (c : Thread nD τ) arg7 fullShare (step1_5 i x2 x3 (k1_pay4 (F := F)))) -∗ K ⟨⟩))
      ⊢ wp frame (wpE (defs₀ (F := F)) Variants.none c none) E (cc1__pairwise_kernel i arg2 harg2 arg3 harg3 arg4 harg4 arg5 harg5 arg6 harg6 arg7 harg7) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := first | exact hc0)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    rw [View.read_writes_eq_canon _ _ _ (cover1x1 _ _), View.canon_cons_unit_zero hz1x1]
    unfold step1_4
    sl_unfold_run_names
    rw [View.readCov_unit_zero (Val := Elt F) (S := S1x1) arg6.view hz1x1 inb_S1x1_S1x1_0_0]
    simp only [View.readAt_eq_ld, View.ld_unit_zero (S := S1x1) hz1x1, View.ld_unit_zero (S := S512) hz512]
  · iexists _; isplitr
    swap; · iexact H5
    ipureintro
    rw [View.read_writes_eq_canon _ _ _ (cover1x1 _ _), View.canon_cons_unit_zero hz1x1]
    unfold step1_5
    sl_unfold_run_names
    rw [View.readCov_unit_zero (Val := Elt F) (S := S1x1) arg7.view hz1x1 inb_S1x1_S1x1_0_0]
    simp only [View.readAt_eq_ld, View.ld_unit_zero (S := S1x1) hz1x1, View.ld_unit_zero (S := S512) hz512]

/-! ## What each window's buffer holds when the body is called -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
/-- At the first point accumulator 4 holds anything: its buffer is fresh. -/
theorem before1_4_first (c : Dev nD) (t : Fin cfg1.N) (h0 : t.val = 0) (d) : (dat1 V c).before 4 t d = d :=
  Dat.before_out_reset _ 4 rfl t (.inl h0) d
/-- At a later point it holds what the body left at the point before: it is written back after the last point only. -/
theorem before1_4_later (c : Dev nD) (t : Fin cfg1.N) (h0 : t.val ≠ 0) (d) :
    (dat1 V c).before 4 t d = acc1_4 V c (t.val - 1) (Nat.lt_of_le_of_lt (Nat.sub_le _ _) t.isLt) := by
  have hN : t.val < 64 := lt_of_lt_of_eq t.isLt (show cfg1.N = 64 from N_1)
  rw [Dat.before_out_kept _ 4 rfl t h0 (Bool.eq_false_iff.mpr fun h => by have := (flush1_4 _).mp h; dsimp only at this; omega)
    (fun _ => rfl) (fun _ _ => rfl)]
  dsimp only [dat1]
/-- At the first point accumulator 5 holds anything: its buffer is fresh. -/
theorem before1_5_first (c : Dev nD) (t : Fin cfg1.N) (h0 : t.val = 0) (d) : (dat1 V c).before 5 t d = d :=
  Dat.before_out_reset _ 5 rfl t (.inl h0) d
/-- At a later point it holds what the body left at the point before: it is written back after the last point only. -/
theorem before1_5_later (c : Dev nD) (t : Fin cfg1.N) (h0 : t.val ≠ 0) (d) :
    (dat1 V c).before 5 t d = acc1_5 V c (t.val - 1) (Nat.lt_of_le_of_lt (Nat.sub_le _ _) t.isLt) := by
  have hN : t.val < 64 := lt_of_lt_of_eq t.isLt (show cfg1.N = 64 from N_1)
  rw [Dat.before_out_kept _ 5 rfl t h0 (Bool.eq_false_iff.mpr fun h => by have := (flush1_5 _).mp h; dsimp only at this; omega)
    (fun _ => rfl) (fun _ _ => rfl)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point: the inputs' buffers hold their blocks; at the first point the accumulators are fresh and the
    zeroing case applies; at a later point they hold what the point before left and the plain case applies. The
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val = 0
  · rw [acc1_4_zero V c t h0, acc1_5_zero V c t h0]
    iintro ⟨HΦ, Ho, ⟨%d0, H0⟩, ⟨%d1, H1⟩, ⟨%d2, H2⟩, ⟨%d3, H3⟩, ⟨%d4, H4⟩, ⟨%d5, H5⟩⟩
    iapply (sound_kernel1_A c Set.univ (grid1.coords t) _ _ _ _ _ _ _ _ _ _ _ _ ((hcond1_0 t).mpr h0)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_4_succ V c t h0, acc1_5_succ V c t h0]
    simp only [before1_4_later V c t h0, before1_5_later V c t h0]
    iintro ⟨HΦ, Ho, ⟨%d0, H0⟩, ⟨%d1, H1⟩, ⟨%d2, H2⟩, ⟨%d3, H3⟩, ⟨%d4, H4⟩, ⟨%d5, H5⟩⟩
    iapply (sound_kernel1_B c Set.univ (grid1.coords t) _ _ _ _ _ _ _ _ _ _ _ _ (fun h => h0 ((hcond1_0 t).mp h))
      (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg1.lean ====
import proofs.«115636_j33612414058531_1_alg».proof.Proof.Gen.Kernel.Launch
import proofs.«115636_j33612414058531_1_alg».proof.Proof.Gen.Kernel.Skeleton
import proofs.«115636_j33612414058531_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115636_j33612414058531_1_alg».proof.Proof.Gen.Kernel.Regions
import proofs.«115636_j33612414058531_1_alg».proof.Proof.K.Chain
import proofs.«115636_j33612414058531_1_alg».proof.Proof.K.Body1
set_option maxRecDepth 16384

/-
  The second region as one item of the program's run.

  Its six windows sit on four buffers: the gains (read through two windows), the norms (read through two windows) and
  the two 1 × 1 results. On entry the core holds every unscoped buffer whole; the gains and the norms are each split
  into two halves, one for the row window and one for the column window, and the two results go to their windows
  whole; every other buffer bypasses the region. On exit the two halves of each input — both still at the contents the
  region found, since an input array is never written — are joined again, and the results are at what their one
  write-back left.
-/
noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A core's unscoped buffers, listed: the four behind the second region's windows, then the rest. -/
theorem unscopedBufs1_eq (c : Dev nD) (V : (b : Ref sig .tc) → Buf (Elt F) ((c : Thread nD τ).loc b)) :
    (unscopedBufs c V : sProp 𝕄) = iprop((((c : Thread nD τ).loc main_v0) ↦{fullShare} V main_v0) ∗ (((c : Thread nD τ).loc main_arg0) ↦{fullShare} V main_arg0)
      ∗ (((c : Thread nD τ).loc main_v1_0) ↦{fullShare} V main_v1_0) ∗ (((c : Thread nD τ).loc main_v1_1) ↦{fullShare} V main_v1_1)
      ∗ Pipeline.unscopedRest (Ix := Unit) (Name := ℕ) (U := UR sig nD τ) (Lvl := ℕ) spec1 c V) := by
  rw [unscopedRest1_eq]
  unfold unscopedBufs
  exact bigSep_eq_bigSepL_of_eq [main_v0, main_arg0, main_v1_0, main_v1_1, main_arg1, main_v2, main_v3, main_cst, main_v4, main_cst_0, main_v5, main_v6, main_cst_1, main_call0_v0, main_v7] (by decide) (by decide) _

/-- The second pipeline's arrays, window by window, each at its share: halves for the four inputs, whole for the results. -/
theorem arrays1_eq (V : (c : Dev nD) → (b : Ref sig .tc) → Buf (Elt F) ((c : Thread nD τ).loc b)) (c : Dev nD)
    (Fa : (w : Fin cfg1.W) → Buf (Elt F) ((cfg1.win w).arr.view.loc (c.tc : Thread nD τ))) :
    ((dat1 V c).arrays Fa : sProp 𝕄) = iprop(
      (((c : Thread nD τ).loc main_v0) ↦{fullShare.left} Fa 0) ∗ (((c : Thread nD τ).loc main_v0) ↦{fullShare.right} Fa 1)
      ∗ (((c : Thread nD τ).loc main_arg0) ↦{fullShare.left} Fa 2) ∗ (((c : Thread nD τ).loc main_arg0) ↦{fullShare.right} Fa 3)
      ∗ (((c : Thread nD τ).loc main_v1_0) ↦{fullShare} Fa 4) ∗ (((c : Thread nD τ).loc main_v1_1) ↦{fullShare} Fa 5)) := by
  unfold Dat.arrays
  rw [bigSep_W1, (arr_whole1 0).set_eq_univ, (arr_whole1 2).set_eq_univ, (arr_whole1 4).set_eq_univ, (arr_whole1 5).set_eq_univ]
  rfl

theorem W2_main_arg0 (c : Dev nD) : W2 m c main_arg0 = W1 m c main_arg0 := by
  unfold W2
  rw [Function.update_of_ne (StableHlo.devRef_ne_of_ne (by decide) : (Proc.devRef .tc main_arg0 : DevRef τ sig) ≠ Proc.devRef .tc main_v1_1),
    Function.update_of_ne (StableHlo.devRef_ne_of_ne (by decide) : (Proc.devRef .tc main_arg0 : DevRef τ sig) ≠ Proc.devRef .tc main_v1_0)]

set_option maxHeartbeats 800000 in
/-- A buffer that is no array of the second region holds after it what it held before. -/
theorem rest1_eq (c : Dev nD) :
    (Pipeline.unscopedRest (Ix := Unit) (Name := ℕ) (U := UR sig nD τ) (Lvl := ℕ) spec1 c (U1 m c) : sProp 𝕄)
      = Pipeline.unscopedRest spec1 c (fun b => W2 m c b) := by
  unfold Pipeline.unscopedRest
  refine bigSep_congr fun b hb => ?_
  have hb' := (Finset.mem_sdiff.mp hb).2
  have h0 : b ≠ main_v1_0 := fun e => hb' (Finset.mem_image.mpr ⟨4, Finset.mem_univ _, by rw [e]⟩)
  have h1 : b ≠ main_v1_1 := fun e => hb' (Finset.mem_image.mpr ⟨5, Finset.mem_univ _, by rw [e]⟩)
  have e : W2 m c b = W1 m c b := by
    unfold W2
    rw [Function.update_of_ne (StableHlo.devRef_ne_of_ne h1), Function.update_of_ne (StableHlo.devRef_ne_of_ne h0)]
  dsimp only
  rw [e]

/-- The full share is its two halves, at any buffer and contents. -/
theorem halves (c : Dev nD) (b : Ref sig .tc) (f : Buf (Elt F) ((c : Thread nD τ).loc b)) :
    (((c : Thread nD τ).loc b) ↦{fullShare} f : sProp 𝕄) ⊣⊢ iprop((((c : Thread nD τ).loc b) ↦{fullShare.left} f) ∗ (((c : Thread nD τ).loc b) ↦{fullShare.right} f)) :=
  pointsTo_share (PosShare.mem_left_op_right fullShare)

/-- ENTRY: the core's unscoped buffers at the contents the region is entered with make its arrays — the gains and the
    norms each as two halves, the two results whole — beside the rest. -/
theorem entry1 (c : Dev nD) :
    (StableHlo.held (c : Thread nD τ) (Pipeline.ucRefs τ sig) (W1 m c) : sProp 𝕄)
      ⊢ iprop((dat1 (U1 m) c).arrays ((dat1 (U1 m) c).arrAt · 0) ∗ Pipeline.unscopedRest spec1 c (U1 m c)) := by
  rw [← Pipeline.unscopedBufs_held (Ix := Unit) (Name := ℕ) (U := UR sig nD τ) (Lvl := ℕ) c (W1 m c), unscopedBufs1_eq, arrays1_eq]
  iintro ⟨Hv0, Ha0, Hv10, Hv11, Hrest⟩
  ihave Hv0' := (halves c main_v0 _).1 $$ Hv0
  icases Hv0' with ⟨Hv0L, Hv0R⟩
  ihave Ha0' := (halves c main_arg0 _).1 $$ Ha0
  icases Ha0' with ⟨Ha0L, Ha0R⟩
  isplitl [Hv0L Hv0R Ha0L Ha0R Hv10 Hv11]
  · isplitl [Hv0L]; · iexact Hv0L
    isplitl [Hv0R]; · iexact Hv0R
    isplitl [Ha0L]; · iexact Ha0L
    isplitl [Ha0R]; · iexact Ha0R
    isplitl [Hv10]; · iexact Hv10
    iexact Hv11
  iexact Hrest

/-- EXIT: the arrays after the last point — the inputs' halves still at the contents found, the results at what their
    write-back left — and the rest make the core's unscoped buffers at the contents after the region. -/
theorem exit1 (c : Dev nD) :
    iprop((dat1 (U1 m) c).arrays ((dat1 (U1 m) c).arrAt · cfg1.N) ∗ Pipeline.unscopedRest spec1 c (U1 m c))
      ⊢ (StableHlo.held (c : Thread nD τ) (Pipeline.ucRefs τ sig) (W2 m c) : sProp 𝕄) := by
  have e0 : (dat1 (U1 m) c).arrAt 0 cfg1.N = U1 m c main_v0 := ((dat1 (U1 m) c).arrAt_in 0 rfl _).trans (A_eq1 (U1 m) c 0)
  have e1 : (dat1 (U1 m) c).arrAt 1 cfg1.N = U1 m c main_v0 := ((dat1 (U1 m) c).arrAt_in 1 rfl _).trans (A_eq1 (U1 m) c 1)
  have e2 : (dat1 (U1 m) c).arrAt 2 cfg1.N = U1 m c main_arg0 := ((dat1 (U1 m) c).arrAt_in 2 rfl _).trans (A_eq1 (U1 m) c 2)
  have e3 : (dat1 (U1 m) c).arrAt 3 cfg1.N = U1 m c main_arg0 := ((dat1 (U1 m) c).arrAt_in 3 rfl _).trans (A_eq1 (U1 m) c 3)
  rw [← Pipeline.unscopedBufs_held (Ix := Unit) (Name := ℕ) (U := UR sig nD τ) (Lvl := ℕ) c (W2 m c), unscopedBufs1_eq, arrays1_eq, ← rest1_eq]
  simp only [e0, e1, e2, e3]
  rw [W2_main_v0, W2_main_arg0, W2_main_v1_0, W2_main_v1_1]
  iintro ⟨⟨H0, H1, H2, H3, H4, H5⟩, Hrest⟩
  isplitl [H0 H1]
  · iapply (halves c main_v0 _).2
    isplitl [H0]; · iexact H0
    iexact H1
  isplitl [H2 H3]
  · iapply (halves c main_arg0 _).2
    isplitl [H2]; · iexact H2
    iexact H3
  isplitl [H4]; · iexact H4
  isplitl [H5]; · iexact H5
  iexact Hrest

-- `iapply` of a library lemma stated over the pinned configuration unifies with it only when unification may unfold
-- plain definitions in a metavariable's type
set_option backward.isDefEq.respectTransparency.types false in
/-- REGION 1 over the thread state: entered from every unscoped buffer at the contents after the first region, left at
    the contents after the second. The generator register goes into the invariant and comes out; nothing is owed; the
    kernel has no semaphore of its own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    iintro ⟨⟨Hub, Hp, HO⟩, -, -⟩
    ihave H := entry1 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply exit1 m c
      isplitl [Ha]; · iexact Ha
      iexact Hrest
    isplitl [HY]; · iexact HY
    unfold Pipeline.Dat.owesAt Pipeline.owesWithin
    icases HO with ⟨%W, -, HO⟩; iexists W; iexact HO

theorem hpre1 : ∀ c : Dev nD, iprop(StableHlo.held (c : Thread nD τ) (Pipeline.ucRefs τ sig) (Gen.V1 m (outs m) c) ∗ R (F := F) c) ⊢ (reg1 m).pre c :=
  fun c => by rw [V1_eq]; exact .rfl
theorem hpost1 : ∀ c : Dev nD, (reg1 m).post c ⊢ iprop(StableHlo.held (c : Thread nD τ) (Pipeline.ucRefs τ sig) (Gen.V2 m (outs m) c) ∗ R (F := F) c) :=
  fun c => by rw [V2_eq]; exact .rfl

end Cert.Kernel.Hand

end
-- ==== Proof.K.Frame.lean ====
/-
  The run of the whole program, from the launch to the return.

  The conditional run takes one segment record per kernel region. With both records in hand, and with the state that
  rides beside the buffers through every item chosen as the core's generator register and its dues (none), the
  launch makes that state on every core, the last item leaves it owing nothing, and the conditional statements become
  unconditional: every execution of @main terminates with both arguments as launched.
-/
import proofs.«115636_j33612414058531_1_alg».proof.Proof.K.Reg0
import proofs.«115636_j33612414058531_1_alg».proof.Proof.K.Reg1
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The launch -/

/-- The launch's ghost element: the pipeline library's initial element, owned whole, beside nothing per core. -/
theorem launch_own :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the state that rides along: the generator register and
    the dues, none, are kept; the rest is dropped. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- The state that rides along ends owing nothing. -/
theorem rest_owes (c : Dev nD) : R (F := F) c ⊢ (iprop(∃ W, owes (c : Thread nD τ) (0 : CellTallies nD τ sig Unit) W) : sProp 𝕄) := by
  iintro ⟨-, H⟩; iexact H

/-! ## The run -/

/-- THE FRAME. From any memory with zero counters, every weakly fair execution of @main terminates and every final
    memory holds each argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m (Ix := Unit) (U := UR sig nD τ) (Lvl := ℕ) emb₁ () 𝒱₀ L lv (fun _ _ => rfl) ρ (outs m) (pdats m)
    0 (fun _ => iprop(emp)) (initOf (Pipeline.cells cfgs cellOf_inj) (Pipeline.launchToks cfgs cellOf_inj))
    launch_own (fun _ c => R c) (launch_rest ρ) rest_owes
    (reg0 m) (hpre0 m) (hpost0 m) (reg1 m) (hpre1 m) (hpost1 m)

end Cert.Kernel.Hand

end
-- ==== Proof.KI.Dat0.lean ====
/-
  Region 0 (the gains kernel): the proof data of its pipeline at the buffer contents `V` the region is entered with.

  The grid has 16 points; point `t` fetches block `t` (256 samples of 8 × 1024 entries) of the input array into
  window 0 and writes window 1's 256 sums back as block `t` of the output array. The body loads the whole input
  block, adds up the two inner axes, and stores the 256 sums over the whole output block.
-/
import proofs.«115636_j33612414058531_1_alg».proof.Proof.Gen.KernelIdeal.Launch
import proofs.«115636_j33612414058531_1_alg».proof.Proof.Gen.KernelIdeal.Skeleton
import proofs.«115636_j33612414058531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses -/

/-- The whole input block: the body's one load of window 0. -/
abbrev r0_0 : Rect S256x8x1024 := Rect.unit (s := S256x8x1024) ![0, 0, 0] S256x8x1024.size inb_S256x8x1024_S256x8x1024_0_0_0
/-- The whole output block: the body's one store to window 1. -/
abbrev r0_1 : Rect S256 := Rect.unit (s := S256) ![0] S256.size inb_S256_S256_0

/-! ## What the body leaves in the output window's buffer -/

/-- Window 1's staging buffer after the body, from the input window's block: its one store as a piece, the payload
    the two sums over the inner axes of the loaded block. -/
def out0_1 (x0 : Vec F S256x8x1024 .f32) : Vec F S256 .f32 :=
  View.canon [⟨r0_1, k0_pay1 (View.ld x0 r0_0)⟩]

/-! ## The pipeline's proof data -/

/-- The proof data of pipeline 0 on core `c`: the arrays as the region finds them (`V`); after the body at point
    `t` the input's buffer at its block and the output's at `out0_1` of the input block; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

end Cert.KernelIdeal.Hand

end
-- ==== Proof.KI.Dat1.lean ====
/-
  The second region (the pairwise tiles), as the pipeline's proof data at the buffers' contents `V` the region is
  entered with.

  The grid is 8 × 8; point t works on the tile (t / 8, t % 8) of the implicit 4096 × 4096 matrix of pairs. Its four input
  windows are blocks of 512: the gains' row block and column block (two windows on ONE array, the first region's
  result) and the norms' row block and column block (two windows on one argument array). Its two outputs are 1 × 1
  accumulators whose block never moves: they are written back once, after the last point, so at every point but the
  first the body finds in them what the point before left. The body zeroes both at the first point and then, at every
  point, adds the tile's total (its count) to what it finds.

  Because two windows read one array, each of the four input windows holds HALF of its array (the left half for the
  row window, the right half for the column window); the outputs' arrays are held whole.
-/
import proofs.«115636_j33612414058531_1_alg».proof.Proof.Gen.KernelIdeal.Launch
import proofs.«115636_j33612414058531_1_alg».proof.Proof.Gen.KernelIdeal.Skeleton
import proofs.«115636_j33612414058531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's update of the running total: what it found plus the tile's total, from the gains' row and column
    blocks and the norms' row and column blocks. -/
def step1_4 (i : grid1.Coords) (x0 x1 x2 x3 : Vec F S512 .f32) (prev : Vec F S1x1 .f32) : Vec F S1x1 .f32 :=
  k1_pay1 (k1_pay6 i x0 x1 x2 x3) prev

/-- One point's update of the running count: what it found plus the number of counting pairs of the tile. -/
def step1_5 (i : grid1.Coords) (x2 x3 : Vec F S512 .f32) (prev : Vec F S1x1 .f32) : Vec F S1x1 .f32 :=
  k1_pay2 (k1_pay7 i x2 x3) prev

/-- The running total after point `n`: from zero at the first point, each point adding its tile. -/
def acc1_4 (c : Dev nD) : (n : ℕ) → n < cfg1.N → Vec F S1x1 .f32
  | 0, hn => step1_4 (grid1.coords ⟨0, hn⟩) (iblk1 V c 0 ⟨0, hn⟩) (iblk1 V c 1 ⟨0, hn⟩) (iblk1 V c 2 ⟨0, hn⟩) (iblk1 V c 3 ⟨0, hn⟩) (k1_pay3 (F := F))
  | n + 1, hn => step1_4 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (acc1_4 c n (Nat.lt_of_succ_lt hn))

/-- The running count after point `n`. -/
def acc1_5 (c : Dev nD) : (n : ℕ) → n < cfg1.N → Vec F S1x1 .f32
  | 0, hn => step1_5 (grid1.coords ⟨0, hn⟩) (iblk1 V c 2 ⟨0, hn⟩) (iblk1 V c 3 ⟨0, hn⟩) (k1_pay4 (F := F))
  | n + 1, hn => step1_5 (grid1.coords ⟨n + 1, hn⟩) (iblk1 V c 2 ⟨n + 1, hn⟩) (iblk1 V c 3 ⟨n + 1, hn⟩) (acc1_5 c n (Nat.lt_of_succ_lt hn))

/-- The running total at the first point and at a later one. -/
theorem acc1_4_zero (c : Dev nD) (t : Fin cfg1.N) (h0 : t.val = 0) :
    acc1_4 V c t.val t.isLt = step1_4 (grid1.coords t) (iblk1 V c 0 t) (iblk1 V c 1 t) (iblk1 V c 2 t) (iblk1 V c 3 t) (k1_pay3 (F := F)) := by
  obtain ⟨n, hn⟩ := t
  cases n with
  | zero => rfl
  | succ n => exact absurd h0 (Nat.succ_ne_zero n)
theorem acc1_4_succ (c : Dev nD) (t : Fin cfg1.N) (h0 : t.val ≠ 0) :
    acc1_4 V c t.val t.isLt = step1_4 (grid1.coords t) (iblk1 V c 0 t) (iblk1 V c 1 t) (iblk1 V c 2 t) (iblk1 V c 3 t)
      (acc1_4 V c (t.val - 1) (Nat.lt_of_le_of_lt (Nat.sub_le _ _) t.isLt)) := by
  obtain ⟨n, hn⟩ := t
  cases n with
  | zero => exact absurd rfl h0
  | succ n => rfl
theorem acc1_5_zero (c : Dev nD) (t : Fin cfg1.N) (h0 : t.val = 0) :
    acc1_5 V c t.val t.isLt = step1_5 (grid1.coords t) (iblk1 V c 2 t) (iblk1 V c 3 t) (k1_pay4 (F := F)) := by
  obtain ⟨n, hn⟩ := t
  cases n with
  | zero => rfl
  | succ n => exact absurd h0 (Nat.succ_ne_zero n)
theorem acc1_5_succ (c : Dev nD) (t : Fin cfg1.N) (h0 : t.val ≠ 0) :
    acc1_5 V c t.val t.isLt = step1_5 (grid1.coords t) (iblk1 V c 2 t) (iblk1 V c 3 t)
      (acc1_5 V c (t.val - 1) (Nat.lt_of_le_of_lt (Nat.sub_le _ _) t.isLt)) := by
  obtain ⟨n, hn⟩ := t
  cases n with
  | zero => exact absurd rfl h0
  | succ n => rfl

/-- The proof data of the second pipeline on core `c`: the arrays as the region finds them; after the body at point
    `t` each input's buffer at its block, the two accumulators at the running total and count; the invariant the scoped
    rest and the generator register, untouched; nothing owed; each input window half of its array. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1_4 V c t.val t.isLt
    | ⟨5, _⟩ => acc1_5 V c t.val t.isLt
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1_4 V c t.val t.isLt := by dsimp only [dat1]
theorem after1_5 (c : Dev nD) (t : Fin cfg1.N) : (dat1 V c).after 5 t = acc1_5 V c t.val t.isLt := by dsimp only [dat1]

end Cert.KernelIdeal.Hand

end
-- ==== Proof.KI.Chain.lean ====
import proofs.«115636_j33612414058531_1_alg».proof.Proof.Gen.KernelIdeal.Launch
import proofs.«115636_j33612414058531_1_alg».proof.Proof.Gen.KernelIdeal.Skeleton
import proofs.«115636_j33612414058531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115636_j33612414058531_1_alg».proof.Proof.Gen.KernelIdeal.Regions
import proofs.«115636_j33612414058531_1_alg».proof.Proof.KI.Dat0
import proofs.«115636_j33612414058531_1_alg».proof.Proof.KI.Dat1
set_option maxRecDepth 16384

/-
  What the buffers hold between the program's items, with the regions' results named.

  The first region leaves the gains in its result array: what its write-backs make of that array, block by block
  (the proof data's `arrAt` after the last point). The second region is entered with that array in place and leaves
  its two 1 × 1 results; every other buffer passes through both regions untouched. These are the contents the
  conditional run of the whole program is instantiated at.
-/
noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The first region is entered with the launch contents. -/
abbrev U0 : (c : Dev nD) → (b : Ref sig .tc) → Buf (Elt F) ((c : Thread nD τ).loc b) := fun c b => Gen.V0 m c b

/-- After the first region: its result array at what the write-backs leave, all else as launched. -/
def W1 (c : Dev nD) : Valuation τ sig (Elt F) :=
  Function.update (Gen.V0 m c) main_v0 ((dat0 (U0 m) c).arrAt 1 cfg0.N)

/-- The second region is entered with those contents. -/
abbrev U1 : (c : Dev nD) → (b : Ref sig .tc) → Buf (Elt F) ((c : Thread nD τ).loc b) := fun c b => W1 m c b

/-- After the second region: its two results at what the one write-back of each leaves. -/
def W2 (c : Dev nD) : Valuation τ sig (Elt F) :=
  Function.update (Function.update (W1 m c) main_v1_0 ((dat1 (U1 m) c).arrAt 4 cfg1.N)) main_v1_1 ((dat1 (U1 m) c).arrAt 5 cfg1.N)

/-- What the regions leave, read wherever the conditional run asks: the contents after both. -/
def outs : Gen.Outs (F := F) := fun _ r c => W2 m c r

theorem W2_main_v0 (c : Dev nD) : W2 m c main_v0 = W1 m c main_v0 := by
  unfold W2
  rw [Function.update_of_ne (StableHlo.devRef_ne_of_ne (by decide) : (Proc.devRef .tc main_v0 : DevRef τ sig) ≠ Proc.devRef .tc main_v1_1),
    Function.update_of_ne (StableHlo.devRef_ne_of_ne (by decide) : (Proc.devRef .tc main_v0 : DevRef τ sig) ≠ Proc.devRef .tc main_v1_0)]

theorem W1_main_v0 (c : Dev nD) : W1 m c main_v0 = (dat0 (U0 m) c).arrAt 1 cfg0.N := by
  unfold W1; exact Function.update_self ..

/-- The generated contents after the first region, at these results, are `W1`. -/
theorem V1_eq (c : Dev nD) : Gen.V1 m (outs m) c = W1 m c := by
  show Function.update (Gen.V0 m c) main_v0 (W2 m c main_v0) = W1 m c
  rw [W2_main_v0, W1_main_v0]; rfl

theorem W2_main_v1_1 (c : Dev nD) : W2 m c main_v1_1 = (dat1 (U1 m) c).arrAt 5 cfg1.N := by
  unfold W2; exact Function.update_self ..

theorem W2_main_v1_0 (c : Dev nD) : W2 m c main_v1_0 = (dat1 (U1 m) c).arrAt 4 cfg1.N := by
  unfold W2
  rw [Function.update_of_ne (StableHlo.devRef_ne_of_ne (by decide) : (Proc.devRef .tc main_v1_0 : DevRef τ sig) ≠ Proc.devRef .tc main_v1_1)]
  exact Function.update_self ..

/-- The generated contents after the second region, at these results, are `W2`. -/
theorem V2_eq (c : Dev nD) : Gen.V2 m (outs m) c = W2 m c := by
  show Function.update (Function.update (Gen.V1 m (outs m) c) main_v1_0 (W2 m c main_v1_0)) main_v1_1 (W2 m c main_v1_1) = W2 m c
  rw [V1_eq, W2_main_v1_0, W2_main_v1_1]; rfl

/-- Every pipeline's proof data, each at its region's entry contents — a literal match on the pipeline. -/
def pdats : (p : Fin 2) → (c : Dev nD) → Dat τ (Elt F) Unit ℕ (UR sig nD τ) ℕ (cfgs p) c
  | ⟨0, _⟩ => fun c => dat0 (U0 m) c
  | ⟨1, _⟩ => fun c => dat1 (U1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)

end Cert.KernelIdeal.Hand

end
-- ==== Proof.KI.Body0.lean ====
/-
  Region 0 (the gains kernel): the body's triple and the pipeline's body obligation at the proof data `dat0`.
-/
import proofs.«115636_j33612414058531_1_alg».proof.Proof.KI.Dat0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The one store tiles the output buffer, so it covers it. -/
theorem cover0_1 (p0 : Vec F S256 .f32) (y : S256.Idx) :
    ∃ pc ∈ ([⟨r0_1, p0⟩] : List (View.Piece (Elt F) S256 .f32)), y ∈ pc.1.set :=
  View.cover_of_tiled [⟨r0_1, p0⟩] S256.size (by rfl) y

set_option maxHeartbeats 1000000 in
/-- The kernel body on whole staging memrefs, the input's at read contents `x0` and the output's at anything, runs to
    the continuation holding the input's as it was and the output's at `out0_1 x0`. The body also loads the output
    buffer before storing it; that value is not used. -/
theorem sound_kernel0 (c : Dev nD) (E : Set ℕ) (i : grid0.Coords) (arg1 : Memref sig .tc .vmem S256x8x1024 .f32) (harg1 : arg1.IsWhole) (arg2 : Memref sig .tc .vmem S256 .f32) (harg2 : arg2.IsWhole)
    (x0 : Vec F S256x8x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__gains_kernel i arg1 harg1 arg2 harg2) K := by
  simp only [cc0__gains_kernel_eq_skeleton]; unfold cc0__gains_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so `sound_kernel0` applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg0.lean ====
/-
  Region 0 (the gains kernel) as a segment of the whole program's run.

  The region is entered with every unscoped buffer at the launch contents and left with the gains array at what the
  write-backs make of it, every other buffer as it was. Its two arrays (the input samples and the gains) are split
  out of the unscoped buffers at the entry and put back at the exit contents; the generator register goes into the
  pipeline's invariant and comes back; nothing is owed; the kernel has no semaphore of its own.
-/
import proofs.«115636_j33612414058531_1_alg».proof.Proof.KI.Chain
import proofs.«115636_j33612414058531_1_alg».proof.Proof.KI.Body0
import proofs.«115636_j33612414058531_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The contents at the region's exit -/

/-- The contents after the first region, read at the TensorCore's references. -/
abbrev X1 : (c : Dev nD) → (b : Ref sig .tc) → Buf (Elt F) ((c : Thread nD τ).loc b) := fun c b => Gen.V1 m (outs m) c b

/-- At the exit each array of the region holds what the pipeline leaves: the input array is never written, so it
    holds what it held at the entry; the gains array holds what the write-backs make of it, by the choice of the
    results. -/
theorem hF0 (c : Dev nD) : ∀ w : Fin cfg0.W, (dat0 (U0 m) c).arrAt w cfg0.N = X1 m c (Pipeline.arrRef spec0 w)
  | ⟨0, _⟩ => (((dat0 (U0 m) c).arrAt_in 0 rfl _).trans (A_eq0 (U0 m) c 0)).trans (Gen.V1_of m (outs m) c main_arg1 (by decide)).symm
  | ⟨1, _⟩ => ((congrFun (V1_eq m c) (Proc.devRef .tc main_v0)).trans (W1_main_v0 m c)).symm

/-- Every buffer that is no array of the region holds at the exit what it held at the entry. -/
theorem hrest0 (c : Dev nD) : ∀ b, b ∉ Finset.univ.image (Pipeline.arrRef spec0) → X1 m c b = U0 m c b :=
  fun b hb => Gen.V1_of m (outs m) c b fun h => by
    rw [List.mem_singleton] at h
    exact hb (Finset.mem_image.mpr ⟨1, Finset.mem_univ _, h.symm⟩)

/-! ## The region as a segment -/

-- a library lemma stated over the pinned configuration unifies with the printed one only when unification may
-- unfold plain definitions in a metavariable's type
set_option backward.isDefEq.respectTransparency.types false in
/-- Region 0 over the thread state: entered from every unscoped buffer at the launch contents, left at the contents
    after the first region. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U0 m c) (X1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region is entered from the thread state the run hands it: every unscoped buffer at the launch contents. -/
theorem hpre0 : ∀ c : Dev nD, iprop(StableHlo.held (c : Thread nD τ) (Pipeline.ucRefs τ sig) (Gen.V0 m c) ∗ R (F := F) c) ⊢ (reg0 m).pre c :=
  fun _ => .rfl

/-- It leaves the thread state the next item is entered from: every unscoped buffer at the contents after it. -/
theorem hpost0 : ∀ c : Dev nD, (reg0 m).post c ⊢ iprop(StableHlo.held (c : Thread nD τ) (Pipeline.ucRefs τ sig) (Gen.V1 m (outs m) c) ∗ R (F := F) c) :=
  fun _ => .rfl

end Cert.KernelIdeal.Hand

end
-- ==== Proof.KI.Body1.lean ====
import proofs.«115636_j33612414058531_1_alg».proof.Proof.Gen.KernelIdeal.Launch
import proofs.«115636_j33612414058531_1_alg».proof.Proof.Gen.KernelIdeal.Skeleton
import proofs.«115636_j33612414058531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115636_j33612414058531_1_alg».proof.Proof.KI.Dat1
import Idealize.ShloMosaic.Lib.Pipeline.Value
set_option maxRecDepth 16384

/-
  The second region's body at every grid point.

  The body has one branch: at the first point (both grid coordinates zero) it stores zero into both accumulators before
  anything else. After that, at every point, it loads the four input blocks, forms the tile's total and count, and
  stores "what the accumulator holds + the tile's share" into each accumulator. So at the first point the accumulators
  end at zero + tile, whatever they held, and at a later point at what the point before left + tile: the running
  total and count of the proof data. The inputs' buffers are only read.
-/
noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The condition of the body's zeroing branch, from the grid coordinates. -/
abbrev cond1_0 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only — decided over the 64 points. -/
theorem hcond1_0 : ∀ t : Fin cfg1.N, cond1_0 (grid1.coords t) ↔ t.val = 0 :=
  (by decide +kernel : ∀ t : Fin grid1.N, cond1_0 (grid1.coords t) ↔ t.val = 0)

theorem hz1x1 : (![0, 0] : Fin S1x1.rank → Nat) = fun _ => 0 := by
  funext a; match a with | ⟨0, _⟩ => rfl | ⟨1, _⟩ => rfl
theorem hz512 : (![0] : Fin S512.rank → Nat) = fun _ => 0 := by
  funext a; match a with | ⟨0, _⟩ => rfl

/-- A single store through the whole 1 × 1 rectangle covers the buffer. -/
theorem cover1x1 (p0 : Vec F S1x1 .f32) (L : List (View.Piece (Elt F) S1x1 .f32)) (y : S1x1.Idx) :
    ∃ pc ∈ ((⟨Rect.unit (s := S1x1) ![0, 0] S1x1.size inb_S1x1_S1x1_0_0, p0⟩ : View.Piece (Elt F) S1x1 .f32) :: L), y ∈ pc.1.set :=
  ⟨_, List.mem_cons_self .., (View.cover_of_tiled [⟨Rect.unit (s := S1x1) ![0, 0] S1x1.size inb_S1x1_S1x1_0_0, p0⟩] S1x1.size (by rfl) y).elim
    fun pc h => by have := List.mem_singleton.mp h.1; subst this; exact h.2⟩

set_option maxHeartbeats 2000000 in
/-- At a later point: the accumulators hold the running total and count `p4`, `p5`; the body leaves each at its update. -/
theorem sound_kernel1_B (c : Dev nD) (E : Set ℕ) (i : grid1.Coords)
    (arg2 : Memref sig .tc .vmem S512 .f32) (harg2 : arg2.IsWhole) (arg3 : Memref sig .tc .vmem S512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (arg7 : Memref sig .tc .vmem S1x1 .f32) (harg7 : arg7.IsWhole)
    (hc0 : ¬ cond1_0 i)
    (x0 x1 x2 x3 : Vec F S512 .f32) (p4 p5 : Vec F S1x1 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare p4 ∗ owns (c : Thread nD τ) arg7 fullShare p5
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (step1_4 i x0 x1 x2 x3 p4)
            ∗ owns (c : Thread nD τ) arg7 fullShare (step1_5 i x2 x3 p5)) -∗ K ⟨⟩))
      ⊢ wp frame (wpE (defs₀ (F := F)) Variants.none c none) E (cc1__pairwise_kernel i arg2 harg2 arg3 harg3 arg4 harg4 arg5 harg5 arg6 harg6 arg7 harg7) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  subst hf0; subst hf1; subst hf2; subst hf3; subst hf4; subst hf5
  sl_exec (disch := first | exact hc0)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    rw [View.read_writes_eq_canon _ _ _ (cover1x1 _ []), View.canon_unit_zero hz1x1]
    unfold step1_4
    sl_unfold_run_names
    simp only [View.readAt_eq_ld, View.ld_unit_zero (S := S1x1) hz1x1, View.ld_unit_zero (S := S512) hz512]
  · iexists _; isplitr
    swap; · iexact H5
    ipureintro
    rw [View.read_writes_eq_canon _ _ _ (cover1x1 _ []), View.canon_unit_zero hz1x1]
    unfold step1_5
    sl_unfold_run_names
    simp only [View.readAt_eq_ld, View.ld_unit_zero (S := S1x1) hz1x1, View.ld_unit_zero (S := S512) hz512]

set_option maxHeartbeats 2000000 in
/-- At the first point: the accumulators hold anything; the body zeroes them and leaves each at zero + its tile's share. -/
theorem sound_kernel1_A (c : Dev nD) (E : Set ℕ) (i : grid1.Coords)
    (arg2 : Memref sig .tc .vmem S512 .f32) (harg2 : arg2.IsWhole) (arg3 : Memref sig .tc .vmem S512 .f32) (harg3 : arg3.IsWhole)
    (arg4 : Memref sig .tc .vmem S512 .f32) (harg4 : arg4.IsWhole) (arg5 : Memref sig .tc .vmem S512 .f32) (harg5 : arg5.IsWhole)
    (arg6 : Memref sig .tc .vmem S1x1 .f32) (harg6 : arg6.IsWhole) (arg7 : Memref sig .tc .vmem S1x1 .f32) (harg7 : arg7.IsWhole)
    (hc0 : cond1_0 i)
    (x0 x1 x2 x3 : Vec F S512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (step1_4 i x0 x1 x2 x3 (k1_pay3 (F := F)))
            ∗ owns (c : Thread nD τ) arg7 fullShare (step1_5 i x2 x3 (k1_pay4 (F := F)))) -∗ K ⟨⟩))
      ⊢ wp frame (wpE (defs₀ (F := F)) Variants.none c none) E (cc1__pairwise_kernel i arg2 harg2 arg3 harg3 arg4 harg4 arg5 harg5 arg6 harg6 arg7 harg7) K := by
  simp only [cc1__pairwise_kernel_eq_skeleton]; unfold cc1__pairwise_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec (disch := first | exact hc0)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    rw [View.read_writes_eq_canon _ _ _ (cover1x1 _ _), View.canon_cons_unit_zero hz1x1]
    unfold step1_4
    sl_unfold_run_names
    rw [View.readCov_unit_zero (Val := Elt F) (S := S1x1) arg6.view hz1x1 inb_S1x1_S1x1_0_0]
    simp only [View.readAt_eq_ld, View.ld_unit_zero (S := S1x1) hz1x1, View.ld_unit_zero (S := S512) hz512]
  · iexists _; isplitr
    swap; · iexact H5
    ipureintro
    rw [View.read_writes_eq_canon _ _ _ (cover1x1 _ _), View.canon_cons_unit_zero hz1x1]
    unfold step1_5
    sl_unfold_run_names
    rw [View.readCov_unit_zero (Val := Elt F) (S := S1x1) arg7.view hz1x1 inb_S1x1_S1x1_0_0]
    simp only [View.readAt_eq_ld, View.ld_unit_zero (S := S1x1) hz1x1, View.ld_unit_zero (S := S512) hz512]

/-! ## What each window's buffer holds when the body is called -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
/-- At the first point accumulator 4 holds anything: its buffer is fresh. -/
theorem before1_4_first (c : Dev nD) (t : Fin cfg1.N) (h0 : t.val = 0) (d) : (dat1 V c).before 4 t d = d :=
  Dat.before_out_reset _ 4 rfl t (.inl h0) d
/-- At a later point it holds what the body left at the point before: it is written back after the last point only. -/
theorem before1_4_later (c : Dev nD) (t : Fin cfg1.N) (h0 : t.val ≠ 0) (d) :
    (dat1 V c).before 4 t d = acc1_4 V c (t.val - 1) (Nat.lt_of_le_of_lt (Nat.sub_le _ _) t.isLt) := by
  have hN : t.val < 64 := lt_of_lt_of_eq t.isLt (show cfg1.N = 64 from N_1)
  rw [Dat.before_out_kept _ 4 rfl t h0 (Bool.eq_false_iff.mpr fun h => by have := (flush1_4 _).mp h; dsimp only at this; omega)
    (fun _ => rfl) (fun _ _ => rfl)]
  dsimp only [dat1]
/-- At the first point accumulator 5 holds anything: its buffer is fresh. -/
theorem before1_5_first (c : Dev nD) (t : Fin cfg1.N) (h0 : t.val = 0) (d) : (dat1 V c).before 5 t d = d :=
  Dat.before_out_reset _ 5 rfl t (.inl h0) d
/-- At a later point it holds what the body left at the point before: it is written back after the last point only. -/
theorem before1_5_later (c : Dev nD) (t : Fin cfg1.N) (h0 : t.val ≠ 0) (d) :
    (dat1 V c).before 5 t d = acc1_5 V c (t.val - 1) (Nat.lt_of_le_of_lt (Nat.sub_le _ _) t.isLt) := by
  have hN : t.val < 64 := lt_of_lt_of_eq t.isLt (show cfg1.N = 64 from N_1)
  rw [Dat.before_out_kept _ 5 rfl t h0 (Bool.eq_false_iff.mpr fun h => by have := (flush1_5 _).mp h; dsimp only at this; omega)
    (fun _ => rfl) (fun _ _ => rfl)]
  dsimp only [dat1]

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point: the inputs' buffers hold their blocks; at the first point the accumulators are fresh and the
    zeroing case applies; at a later point they hold what the point before left and the plain case applies. The
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val = 0
  · rw [acc1_4_zero V c t h0, acc1_5_zero V c t h0]
    iintro ⟨HΦ, Ho, ⟨%d0, H0⟩, ⟨%d1, H1⟩, ⟨%d2, H2⟩, ⟨%d3, H3⟩, ⟨%d4, H4⟩, ⟨%d5, H5⟩⟩
    iapply (sound_kernel1_A c Set.univ (grid1.coords t) _ _ _ _ _ _ _ _ _ _ _ _ ((hcond1_0 t).mpr h0)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc1_4_succ V c t h0, acc1_5_succ V c t h0]
    simp only [before1_4_later V c t h0, before1_5_later V c t h0]
    iintro ⟨HΦ, Ho, ⟨%d0, H0⟩, ⟨%d1, H1⟩, ⟨%d2, H2⟩, ⟨%d3, H3⟩, ⟨%d4, H4⟩, ⟨%d5, H5⟩⟩
    iapply (sound_kernel1_B c Set.univ (grid1.coords t) _ _ _ _ _ _ _ _ _ _ _ _ (fun h => h0 ((hcond1_0 t).mp h))
      (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg1.lean ====
import proofs.«115636_j33612414058531_1_alg».proof.Proof.Gen.KernelIdeal.Launch
import proofs.«115636_j33612414058531_1_alg».proof.Proof.Gen.KernelIdeal.Skeleton
import proofs.«115636_j33612414058531_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«115636_j33612414058531_1_alg».proof.Proof.Gen.KernelIdeal.Regions
import proofs.«115636_j33612414058531_1_alg».proof.Proof.KI.Chain
import proofs.«115636_j33612414058531_1_alg».proof.Proof.KI.Body1
set_option maxRecDepth 16384

/-
  The second region as one item of the program's run.

  Its six windows sit on four buffers: the gains (read through two windows), the norms (read through two windows) and
  the two 1 × 1 results. On entry the core holds every unscoped buffer whole; the gains and the norms are each split
  into two halves, one for the row window and one for the column window, and the two results go to their windows
  whole; every other buffer bypasses the region. On exit the two halves of each input — both still at the contents the
  region found, since an input array is never written — are joined again, and the results are at what their one
  write-back left.
-/
noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A core's unscoped buffers, listed: the four behind the second region's windows, then the rest. -/
theorem unscopedBufs1_eq (c : Dev nD) (V : (b : Ref sig .tc) → Buf (Elt F) ((c : Thread nD τ).loc b)) :
    (unscopedBufs c V : sProp 𝕄) = iprop((((c : Thread nD τ).loc main_v0) ↦{fullShare} V main_v0) ∗ (((c : Thread nD τ).loc main_arg0) ↦{fullShare} V main_arg0)
      ∗ (((c : Thread nD τ).loc main_v1_0) ↦{fullShare} V main_v1_0) ∗ (((c : Thread nD τ).loc main_v1_1) ↦{fullShare} V main_v1_1)
      ∗ Pipeline.unscopedRest (Ix := Unit) (Name := ℕ) (U := UR sig nD τ) (Lvl := ℕ) spec1 c V) := by
  rw [unscopedRest1_eq]
  unfold unscopedBufs
  exact bigSep_eq_bigSepL_of_eq [main_v0, main_arg0, main_v1_0, main_v1_1, main_arg1, main_v2, main_v3, main_cst, main_v4, main_cst_0, main_v5, main_v6, main_cst_1, main_call0_v0, main_v7] (by decide) (by decide) _

/-- The second pipeline's arrays, window by window, each at its share: halves for the four inputs, whole for the results. -/
theorem arrays1_eq (V : (c : Dev nD) → (b : Ref sig .tc) → Buf (Elt F) ((c : Thread nD τ).loc b)) (c : Dev nD)
    (Fa : (w : Fin cfg1.W) → Buf (Elt F) ((cfg1.win w).arr.view.loc (c.tc : Thread nD τ))) :
    ((dat1 V c).arrays Fa : sProp 𝕄) = iprop(
      (((c : Thread nD τ).loc main_v0) ↦{fullShare.left} Fa 0) ∗ (((c : Thread nD τ).loc main_v0) ↦{fullShare.right} Fa 1)
      ∗ (((c : Thread nD τ).loc main_arg0) ↦{fullShare.left} Fa 2) ∗ (((c : Thread nD τ).loc main_arg0) ↦{fullShare.right} Fa 3)
      ∗ (((c : Thread nD τ).loc main_v1_0) ↦{fullShare} Fa 4) ∗ (((c : Thread nD τ).loc main_v1_1) ↦{fullShare} Fa 5)) := by
  unfold Dat.arrays
  rw [bigSep_W1, (arr_whole1 0).set_eq_univ, (arr_whole1 2).set_eq_univ, (arr_whole1 4).set_eq_univ, (arr_whole1 5).set_eq_univ]
  rfl

theorem W2_main_arg0 (c : Dev nD) : W2 m c main_arg0 = W1 m c main_arg0 := by
  unfold W2
  rw [Function.update_of_ne (StableHlo.devRef_ne_of_ne (by decide) : (Proc.devRef .tc main_arg0 : DevRef τ sig) ≠ Proc.devRef .tc main_v1_1),
    Function.update_of_ne (StableHlo.devRef_ne_of_ne (by decide) : (Proc.devRef .tc main_arg0 : DevRef τ sig) ≠ Proc.devRef .tc main_v1_0)]

set_option maxHeartbeats 800000 in
/-- A buffer that is no array of the second region holds after it what it held before. -/
theorem rest1_eq (c : Dev nD) :
    (Pipeline.unscopedRest (Ix := Unit) (Name := ℕ) (U := UR sig nD τ) (Lvl := ℕ) spec1 c (U1 m c) : sProp 𝕄)
      = Pipeline.unscopedRest spec1 c (fun b => W2 m c b) := by
  unfold Pipeline.unscopedRest
  refine bigSep_congr fun b hb => ?_
  have hb' := (Finset.mem_sdiff.mp hb).2
  have h0 : b ≠ main_v1_0 := fun e => hb' (Finset.mem_image.mpr ⟨4, Finset.mem_univ _, by rw [e]⟩)
  have h1 : b ≠ main_v1_1 := fun e => hb' (Finset.mem_image.mpr ⟨5, Finset.mem_univ _, by rw [e]⟩)
  have e : W2 m c b = W1 m c b := by
    unfold W2
    rw [Function.update_of_ne (StableHlo.devRef_ne_of_ne h1), Function.update_of_ne (StableHlo.devRef_ne_of_ne h0)]
  dsimp only
  rw [e]

/-- The full share is its two halves, at any buffer and contents. -/
theorem halves (c : Dev nD) (b : Ref sig .tc) (f : Buf (Elt F) ((c : Thread nD τ).loc b)) :
    (((c : Thread nD τ).loc b) ↦{fullShare} f : sProp 𝕄) ⊣⊢ iprop((((c : Thread nD τ).loc b) ↦{fullShare.left} f) ∗ (((c : Thread nD τ).loc b) ↦{fullShare.right} f)) :=
  pointsTo_share (PosShare.mem_left_op_right fullShare)

/-- ENTRY: the core's unscoped buffers at the contents the region is entered with make its arrays — the gains and the
    norms each as two halves, the two results whole — beside the rest. -/
theorem entry1 (c : Dev nD) :
    (StableHlo.held (c : Thread nD τ) (Pipeline.ucRefs τ sig) (W1 m c) : sProp 𝕄)
      ⊢ iprop((dat1 (U1 m) c).arrays ((dat1 (U1 m) c).arrAt · 0) ∗ Pipeline.unscopedRest spec1 c (U1 m c)) := by
  rw [← Pipeline.unscopedBufs_held (Ix := Unit) (Name := ℕ) (U := UR sig nD τ) (Lvl := ℕ) c (W1 m c), unscopedBufs1_eq, arrays1_eq]
  iintro ⟨Hv0, Ha0, Hv10, Hv11, Hrest⟩
  ihave Hv0' := (halves c main_v0 _).1 $$ Hv0
  icases Hv0' with ⟨Hv0L, Hv0R⟩
  ihave Ha0' := (halves c main_arg0 _).1 $$ Ha0
  icases Ha0' with ⟨Ha0L, Ha0R⟩
  isplitl [Hv0L Hv0R Ha0L Ha0R Hv10 Hv11]
  · isplitl [Hv0L]; · iexact Hv0L
    isplitl [Hv0R]; · iexact Hv0R
    isplitl [Ha0L]; · iexact Ha0L
    isplitl [Ha0R]; · iexact Ha0R
    isplitl [Hv10]; · iexact Hv10
    iexact Hv11
  iexact Hrest

/-- EXIT: the arrays after the last point — the inputs' halves still at the contents found, the results at what their
    write-back left — and the rest make the core's unscoped buffers at the contents after the region. -/
theorem exit1 (c : Dev nD) :
    iprop((dat1 (U1 m) c).arrays ((dat1 (U1 m) c).arrAt · cfg1.N) ∗ Pipeline.unscopedRest spec1 c (U1 m c))
      ⊢ (StableHlo.held (c : Thread nD τ) (Pipeline.ucRefs τ sig) (W2 m c) : sProp 𝕄) := by
  have e0 : (dat1 (U1 m) c).arrAt 0 cfg1.N = U1 m c main_v0 := ((dat1 (U1 m) c).arrAt_in 0 rfl _).trans (A_eq1 (U1 m) c 0)
  have e1 : (dat1 (U1 m) c).arrAt 1 cfg1.N = U1 m c main_v0 := ((dat1 (U1 m) c).arrAt_in 1 rfl _).trans (A_eq1 (U1 m) c 1)
  have e2 : (dat1 (U1 m) c).arrAt 2 cfg1.N = U1 m c main_arg0 := ((dat1 (U1 m) c).arrAt_in 2 rfl _).trans (A_eq1 (U1 m) c 2)
  have e3 : (dat1 (U1 m) c).arrAt 3 cfg1.N = U1 m c main_arg0 := ((dat1 (U1 m) c).arrAt_in 3 rfl _).trans (A_eq1 (U1 m) c 3)
  rw [← Pipeline.unscopedBufs_held (Ix := Unit) (Name := ℕ) (U := UR sig nD τ) (Lvl := ℕ) c (W2 m c), unscopedBufs1_eq, arrays1_eq, ← rest1_eq]
  simp only [e0, e1, e2, e3]
  rw [W2_main_v0, W2_main_arg0, W2_main_v1_0, W2_main_v1_1]
  iintro ⟨⟨H0, H1, H2, H3, H4, H5⟩, Hrest⟩
  isplitl [H0 H1]
  · iapply (halves c main_v0 _).2
    isplitl [H0]; · iexact H0
    iexact H1
  isplitl [H2 H3]
  · iapply (halves c main_arg0 _).2
    isplitl [H2]; · iexact H2
    iexact H3
  isplitl [H4]; · iexact H4
  isplitl [H5]; · iexact H5
  iexact Hrest

-- `iapply` of a library lemma stated over the pinned configuration unifies with it only when unification may unfold
-- plain definitions in a metavariable's type
set_option backward.isDefEq.respectTransparency.types false in
/-- REGION 1 over the thread state: entered from every unscoped buffer at the contents after the first region, left at
    the contents after the second. The generator register goes into the invariant and comes out; nothing is owed; the
    kernel has no semaphore of its own. -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    iintro ⟨⟨Hub, Hp, HO⟩, -, -⟩
    ihave H := entry1 m c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply exit1 m c
      isplitl [Ha]; · iexact Ha
      iexact Hrest
    isplitl [HY]; · iexact HY
    unfold Pipeline.Dat.owesAt Pipeline.owesWithin
    icases HO with ⟨%W, -, HO⟩; iexists W; iexact HO

theorem hpre1 : ∀ c : Dev nD, iprop(StableHlo.held (c : Thread nD τ) (Pipeline.ucRefs τ sig) (Gen.V1 m (outs m) c) ∗ R (F := F) c) ⊢ (reg1 m).pre c :=
  fun c => by rw [V1_eq]; exact .rfl
theorem hpost1 : ∀ c : Dev nD, (reg1 m).post c ⊢ iprop(StableHlo.held (c : Thread nD τ) (Pipeline.ucRefs τ sig) (Gen.V2 m (outs m) c) ∗ R (F := F) c) :=
  fun c => by rw [V2_eq]; exact .rfl

end Cert.KernelIdeal.Hand

end
-- ==== Proof.KI.RunCond.lean ====
/-
  The run of the whole program, with its result named.

  The generated conditional frame shows that, given one segment record per kernel region, every execution of @main
  terminates with both arguments unchanged. The same application of the regions theorem proves more: at the end the
  final memory agrees with the last valuation `V4` on every unscoped buffer, so the result buffer `main_v7` holds
  `V4 … main_v7`. This module states and proves that stronger conclusion under the same hypotheses.
-/
import proofs.«115636_j33612414058531_1_alg».proof.Proof.Gen.KernelIdeal.Regions

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of the whole program with its result named. Under the same hypotheses as the conditional frame (one
    segment record per kernel region, entered from the thread state before it and left at the one after it), every
    weakly fair execution of @main from memory `m` with zero counters terminates, and every final memory holds in
    `main_v7` what the last valuation `V4` holds there, and holds each argument as launched. The final memory agrees
    with the last valuation on every unscoped buffer, so the result is read off it exactly as the arguments are. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c)) :
    θ_run defs (onTc (τ := τ) (main (F := F))) ⟨m, fun _ => 0, ρ⟩ (fun r => ∀ c : Dev nD,
      r.2.mem ((c.tc : Thread nD τ).loc main_v7) = Gen.V4 m outs c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          Prog.lift (.customCall (Pipeline.entry 1) ()),
          StableHlo.seq hostOps2,
          StableHlo.seq hostOps2_1 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨hpre0 c, (hpost0 c).trans (hpre1 c), hpost1 c, .rfl, sep_mono .rfl (hE2 c)⟩)
    (hinit := ?_) (QY := fun c s => s.mem ((c.tc : Thread nD τ).loc main_v7) = Gen.V4 m outs c main_v7 ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact ⟨h (Proc.devRef .tc main_v7) (Finset.mem_filter.mpr ⟨StableHlo.devRef_mem_tcRefs main_v7, by decide⟩),
        (h (Proc.devRef .tc main_arg0) (Finset.mem_filter.mpr ⟨StableHlo.devRef_mem_tcRefs main_arg0, by decide⟩)).trans (V4_main_arg0 m outs c),
        (h (Proc.devRef .tc main_arg1) (Finset.mem_filter.mpr ⟨StableHlo.devRef_mem_tcRefs main_arg1, by decide⟩)).trans (V4_main_arg1 m outs c)⟩
    · iexact HSI

end Cert.KernelIdeal.Hand

end
-- ==== Proof.KI.Frame.lean ====
/-
  The run of the whole program, from the launch to the return.

  The conditional run takes one segment record per kernel region. With both records in hand, and with the state that
  rides beside the buffers through every item chosen as the core's generator register and its dues (none), the
  launch makes that state on every core, the last item leaves it owing nothing, and the conditional statements become
  unconditional: every execution of @main terminates with both arguments as launched, and with the result buffer at
  what the last valuation holds there.
-/
import proofs.«115636_j33612414058531_1_alg».proof.Proof.KI.Reg0
import proofs.«115636_j33612414058531_1_alg».proof.Proof.KI.Reg1
import proofs.«115636_j33612414058531_1_alg».proof.Proof.KI.RunCond
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The launch -/

/-- The launch's ghost element: the pipeline library's initial element, owned whole, beside nothing per core. -/
theorem launch_own :
    (ownU (initOf (Pipeline.cells cfgs cellOf_inj) (Pipeline.launchToks cfgs cellOf_inj)) : sProp 𝕄)
      ⊢ |={Set.univ}=> iprop(BI.own ((emb₁ : Emb (UR sig nD τ) 𝕄) (initOf (Pipeline.cells cfgs cellOf_inj) (Pipeline.launchToks cfgs cellOf_inj)))
          ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core beside its buffers makes the state that rides along: the generator register and
    the dues, none, are kept; the rest is dropped. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

/-- The state that rides along ends owing nothing. -/
theorem rest_owes (c : Dev nD) : R (F := F) c ⊢ (iprop(∃ W, owes (c : Thread nD τ) (0 : CellTallies nD τ sig Unit) W) : sProp 𝕄) := by
  iintro ⟨-, H⟩; iexact H

/-! ## The run -/

/-- THE FRAME. From any memory with zero counters, every weakly fair execution of @main terminates and every final
    memory holds each argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m (Ix := Unit) (U := UR sig nD τ) (Lvl := ℕ) emb₁ () 𝒱₀ L lv (fun _ _ => rfl) ρ (outs m) (pdats m)
    0 (fun _ => iprop(emp)) (initOf (Pipeline.cells cfgs cellOf_inj) (Pipeline.launchToks cfgs cellOf_inj))
    launch_own (fun _ c => R c) (launch_rest ρ) rest_owes
    (reg0 m) (hpre0 m) (hpost0 m) (reg1 m) (hpre1 m) (hpost1 m)

/-- THE RUN WITH ITS RESULT NAMED. Moreover every final memory holds in the result buffer what the last valuation
    holds there, at the contents the two regions leave. -/
theorem run_named (ρ : Dev nD → PrngReg) : θ_run defs (onTc (τ := τ) (main (F := F))) ⟨m, fun _ => 0, ρ⟩ (fun r => ∀ c : Dev nD,
      r.2.mem ((c.tc : Thread nD τ).loc main_v7) = Gen.V4 m (outs m) c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m (Ix := Unit) (U := UR sig nD τ) (Lvl := ℕ) emb₁ () 𝒱₀ L lv (fun _ _ => rfl) ρ (outs m) (pdats m)
    0 (fun _ => iprop(emp)) (initOf (Pipeline.cells cfgs cellOf_inj) (Pipeline.launchToks cfgs cellOf_inj))
    launch_own (fun _ c => R c) (launch_rest ρ) rest_owes
    (reg0 m) (hpre0 m) (hpost0 m) (reg1 m) (hpre1 m) (hpost1 m)

end Cert.KernelIdeal.Hand

end
-- ==== Proof.Spec.lean ====
/-
  The ranking loss both programs compute, as one function of the two argument arrays over the extended reals.

  A sample's gain is the sum of its 8 × 1024 entries. An ordered pair (i, j) of samples counts when i comes before j
  and i's norm is the larger one; a counting pair contributes the positive part of (gain j − gain i + margin). The
  result is the contributions' total divided by the number of counting pairs (at least one), and zero when no pair
  counts. The division and the two comparisons at the end are kept as the programs spell them (`finish`), since
  both programs end with the same three operations on the total and the count.
-/
import Idealize.ShloMosaic.PureOps.Ideal
import Idealize.ShloMosaic.Lib.ValueIdx

noncomputable section

namespace Cert.PairRank

open Idealize.ShloMosaic Idealize.ShloMosaic.ValueIdx
open scoped BigOperators

/-- The margin: the value of the single-precision word nearest to one tenth (the same word in both programs). -/
def margin : EReal := Ideal.ofBits .f32 0x3DCCCCCD#32

/-- The gains: sample `b`'s 8 × 1024 entries added up. -/
def gain (g : Fin 4096 → Fin 8 → Fin 1024 → EReal) (b : Fin 4096) : EReal := ∑ h : Fin 8, ∑ n : Fin 1024, g b h n

/-- The pair (i, j) counts: i comes first and has the larger norm. -/
def hit (ν : Fin 4096 → EReal) (i j : Fin 4096) : Prop := ν j < ν i ∧ i.val < j.val

instance (ν : Fin 4096 → EReal) (i j : Fin 4096) : Decidable (hit ν i j) := by unfold hit; exact inferInstance

/-- One pair's contribution to the total. -/
def term (γ ν : Fin 4096 → EReal) (i j : Fin 4096) : EReal := if hit ν i j then max (γ j - γ i + margin) 0 else 0

/-- One pair's contribution to the count. -/
def one (ν : Fin 4096 → EReal) (i j : Fin 4096) : EReal := if hit ν i j then 1 else 0

/-- The total over all pairs. -/
def total (γ ν : Fin 4096 → EReal) : EReal := ∑ i : Fin 4096, ∑ j : Fin 4096, term γ ν i j

/-- The number of counting pairs. -/
def count (ν : Fin 4096 → EReal) : EReal := ∑ i : Fin 4096, ∑ j : Fin 4096, one ν i j

/-- An array of 4096 × 8 × 1024 entries by coordinates, and a vector of 4096 by its coordinate. -/
def cube (x : (⟨3, ![4096, 8, 1024]⟩ : Shape).Idx → EReal) : Fin 4096 → Fin 8 → Fin 1024 → EReal := fun b h n => x (ix3 b h n)
def vec (x : (⟨1, ![4096]⟩ : Shape).Idx → EReal) : Fin 4096 → EReal := fun i => x (ix1 i)

/-- The last three operations, the same in both programs: `count > 0 ? total / max(count, 1) : 0` on scalars. -/
def finish (T C : FVec Ideal ⟨0, ![]⟩ .f32) : FVec Ideal ⟨0, ![]⟩ .f32 :=
  select (cmpf (F := Ideal) .ogt C (constant (F := Ideal) ⟨0, ![]⟩ .f32 0x00000000#32))
    (Host.divf (F := Ideal) T (maximumf (F := Ideal) C (constant (F := Ideal) ⟨0, ![]⟩ .f32 0x3F800000#32)))
    (constant (F := Ideal) ⟨0, ![]⟩ .f32 0x00000000#32)

/-- The whole result as a scalar array, from the two argument arrays. -/
def loss (norms : (⟨1, ![4096]⟩ : Shape).Idx → EReal) (g : (⟨3, ![4096, 8, 1024]⟩ : Shape).Idx → EReal) : FVec Ideal ⟨0, ![]⟩ .f32 :=
  finish (fun _ => total (gain (cube g)) (vec norms)) (fun _ => count (vec norms))

end Cert.PairRank

end
-- ==== Proof.KI.Tail.lean ====
/-
  What the result buffer holds at the end, from what the second region leaves in its two 1 × 1 outputs.

  After the second region, ten operations remain, all on scalars: the two 1 × 1 outputs are reshaped to scalars (the
  total and the count), the count is compared with zero, the total is divided by the larger of the count and one, and
  the quotient is selected when the count is positive, zero otherwise. Evaluated in order over the contents the second
  region leaves, these operations are exactly the specification's last three operations on the total and the count.
-/
import proofs.«115636_j33612414058531_1_alg».proof.Proof.Gen.KernelIdeal.Regions
import proofs.«115636_j33612414058531_1_alg».proof.Proof.Spec
import Idealize.ShloMosaic.Lib.StableHlo.Run
import Idealize.ShloMosaic.Lib.Pipeline.Value

noncomputable section

namespace Cert.KernelIdeal.HandValue

open Cert.KernelIdeal.Gen
open Idealize.ShloMosaic Idealize.ShloMosaic.TcCoe
open Idealize.SL.Sem

/-- If the second region leaves the constant `T` in its first 1 × 1 output and the constant `C` in its second, then
    at the end the result buffer holds `C > 0 ? T / max(C, 1) : 0`, as the specification spells it.

    The two outputs are read off the valuation after the second region: the second output is the outermost update, the
    first lies under an update at a different reference. A reshape of a constant function is the same constant function,
    and the transports along the buffers' types are the identity, so what the operations compute is the specification's
    term by unfolding. -/
theorem V4_main_v7 (m : (ℓ : Loc nD τ sig) → Buf (Elt Ideal) ℓ) (outs : Gen.Outs (F := Ideal)) (c : Dev nD) (T C : EReal)
    (hT : outs 2 main_v1_0 c = fun _ => T) (hC : outs 2 main_v1_1 c = fun _ => C) :
    Gen.V4 (F := Ideal) m outs c main_v7 = Cert.PairRank.finish (fun _ => T) (fun _ => C) := by
  -- the second output: the outermost update
  have e1 : Gen.V2 m outs c (Proc.devRef .tc main_v1_1) = outs 2 main_v1_1 c := by
    simp only [Gen.V2, Function.update_self]
  -- the first output: under an update at a different reference
  have e0 : Gen.V2 m outs c (Proc.devRef .tc main_v1_0) = outs 2 main_v1_0 c := by
    simp only [Gen.V2, Function.update_of_ne (StableHlo.devRef_ne_of_ne (by decide) : (Proc.devRef .tc main_v1_0 : DevRef τ sig) ≠ Proc.devRef .tc main_v1_1), Function.update_self]
  -- the ten operations, evaluated in order
  show StableHlo.after hostOps2_1 _ (Proc.devRef .tc main_v7) = _
  after_results
  rw [e1, e0, hT, hC]
  rfl

end Cert.KernelIdeal.HandValue

end
-- ==== Proof.KI.Value0.lean ====
/-
  Region 0 (the gains kernel) at the extended reals: the arrays the region leaves, for any entry contents `V`.

  The input array is never written. The output array ends holding every sample's gain: point `t` of the 16 writes
  back, as block `t` of the output, the 256 sums over the two inner axes of block `t` of the input; element
  (p, h, n) of that block is element (256 t + p, h, n) of the array; and sample r lies in block r / 256, so the 16
  blocks cover the output.
-/
import proofs.«115636_j33612414058531_1_alg».proof.Proof.KI.Dat0
import proofs.«115636_j33612414058531_1_alg».proof.Proof.Spec
import Idealize.ShloMosaic.Lib.ValueIdx
import Idealize.ShloMosaic.Lib.Pipeline.Value
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open Cert.PairRank
open scoped BigOperators

-- the TensorCore's buffer contents when the region is entered
variable (V : (c : Dev nD) → (b : Ref sig .tc) → Buf (Elt Ideal) ((c : Thread nD τ).loc b))

/-! ## The input array -/

/-- The input window's array is never written back: after the 16 points it is as the region found it. -/
theorem arrAt0_in (c : Dev nD) : (dat0 (F := Ideal) V c).arrAt 0 cfg0.N = V c main_arg1 :=
  ((dat0 V c).arrAt_in 0 rfl _).trans (A_eq0 V c 0)

/-! ## The payload at an index -/

/-- The body's payload at row `p`: the two lane sums, exact over the extended reals, are the double sum of the
    row's 8 × 1024 entries (the inner sum first in the program; addition is commutative, so the order is free). -/
theorem pay_apply (x : Vec Ideal S256x8x1024 .f32) (p : Fin 256) :
    k0_pay1 x (ix1 p) = ∑ h : Fin 8, ∑ n : Fin 1024, x (ix3 p h n) := by
  calc k0_pay1 x (ix1 p) = ∑ n : Fin 1024, ∑ h : Fin 8, x (ix3 p h n) := by
        unfold k0_pay1
        dsimp only
        refine (Ideal.multiReduction_add_single _ _ _ _ _ (ix1 p)).trans ?_
        refine Finset.sum_congr rfl fun n _ => ?_
        refine (Ideal.multiReduction_add_single _ _ _ _ _ _).trans ?_
        refine Finset.sum_congr rfl fun h _ => congrArg x ?_
        funext a; apply Fin.ext
        match a with
        | ⟨0, _⟩ => rfl
        | ⟨1, _⟩ => rfl
        | ⟨2, _⟩ => rfl
    _ = _ := Finset.sum_comm

/-- So when row `q` of the block is row `r` of an array `A`, the payload there is sample `r`'s gain. -/
theorem pay_gain (x : Vec Ideal S256x8x1024 .f32) (A : S4096x8x1024.Idx → EReal) (q : S256.Idx) (r : Fin 4096)
    (hx : ∀ (h : Fin 8) (n : Fin 1024), x (ix3 (n0 := 256) (q 0) h n) = A (ix3 r h n)) :
    k0_pay1 x q = gain (cube A) r := by
  have e : q = ix1 (n := 256) (q 0) := eq_ix1 q
  refine (congrArg (k0_pay1 x) e).trans ((pay_apply x (q 0)).trans ?_)
  unfold gain cube
  exact Finset.sum_congr rfl fun h _ => Finset.sum_congr rfl fun n _ => hx h n

/-! ## The blocks -/

/-- The index maps over the grid: at point `t` the output's block index is `t` and the input's is (t, 0, 0). -/
theorem idx_facts : ∀ t : Fin cfg0.N, win0_1.index t (0 : Fin 1) = t.val
    ∧ win0_0.index t (0 : Fin 3) = t.val ∧ win0_0.index t (1 : Fin 3) = 0 ∧ win0_0.index t (2 : Fin 3) = 0 :=
  (by decide +kernel : ∀ t : Fin grid0.N, _)

/-- Element (p, h, n) of the input block at point `t` is element (256 t + p, h, n) of the input array. -/
theorem iblk_apply (c : Dev nD) (t : Fin cfg0.N) (y : S256x8x1024.Idx) (k : S4096x8x1024.Idx)
    (hk0 : (k 0).val = 256 * t.val + (y 0).val) (hk1 : (k 1).val = (y 1).val) (hk2 : (k 2).val = (y 2).val) :
    (iblk0 V c 0 t : Vec Ideal S256x8x1024 .f32) y = (V c main_arg1 : S4096x8x1024.Idx → EReal) k := by
  obtain ⟨-, i0, i1, i2⟩ := idx_facts t
  unfold iblk0
  rw [View.read_apply]
  show V c main_arg1 _ = V c main_arg1 _
  congr 1
  funext a
  apply Fin.ext
  match a with
  | ⟨0, _⟩ => show win0_0.index t (0 : Fin 3) * 256 + 1 * (y 0).val = (k 0).val; rw [i0, hk0]; omega
  | ⟨1, _⟩ => show win0_0.index t (1 : Fin 3) * 8 + 1 * (y 1).val = (k 1).val; rw [i1, hk1]; omega
  | ⟨2, _⟩ => show win0_0.index t (2 : Fin 3) * 1024 + 1 * (y 2).val = (k 2).val; rw [i2, hk2]; omega

theorem hz1 : (![0] : Fin 1 → Nat) = fun _ => 0 := funext fun a => by fin_cases a; rfl
theorem hz3 : (![0, 0, 0] : Fin 3 → Nat) = fun _ => 0 := funext fun a => by fin_cases a <;> rfl

/-- The gains as an array over the 4096 samples. -/
abbrev G (c : Dev nD) : S4096.Idx → EReal := fun i => gain (cube (V c main_arg1)) (i 0)

/-- What point `t` writes back is block `t` of the gains: the body stores the payload of the whole input block over
    the whole output block, and row p of block `t` is sample 256 t + p on both sides. -/
theorem flushed_eq (c : Dev nD) (t : Fin cfg0.N) :
    (dat0 (F := Ideal) V c).flushed 1 t = ((cfg0.win 1).blk t).view.read (Elt Ideal) (G V c) := by
  show (cfg0.win 1).cut (grid0.coords t) ((dat0 V c).after 1 t) = _
  rw [after0_1]
  unfold out0_1
  rw [View.canon_unit_zero hz1]
  simp only [View.ld_unit_zero (S := S256x8x1024) hz3]
  obtain ⟨i0, -, -, -⟩ := idx_facts t
  funext j
  have hj : (j 0).val < 256 := (j 0).isLt
  show k0_pay1 (iblk0 V c 0 t) ((cfg0.win 1).xinj (grid0.coords t) j) = gain (cube (V c main_arg1)) ((((cfg0.win 1).blk t).view.emb j) 0)
  refine pay_gain _ _ _ _ fun h n => ?_
  refine iblk_apply V c t _ _ ?_ rfl rfl
  show win0_1.index t (0 : Fin 1) * 256 + 1 * (j 0).val = 256 * t.val + (j 0).val
  rw [i0]; omega

/-- A sample is in point `t`'s output block iff it lies in the block's range of 256. -/
theorem mem_blk (t : Fin cfg0.N) (i : S4096.Idx) :
    i ∈ ((cfg0.win 1).blk t).view.set ↔ ∀ a : Fin 1, win0_1.index t a * S256.size a ≤ (i a).val ∧ (i a).val < win0_1.index t a * S256.size a + S256.size a := by
  show i ∈ ((View.whole main_v0).slice (win0_1.rect t)).set ↔ _
  rw [View.set_slice_whole, Rect.mem_set_unit]
  exact Iff.rfl

/-- The 16 blocks cover the output: sample r is in the block of point r / 256, which writes back. -/
theorem cover (i : S4096.Idx) : ∃ t : Fin cfg0.N, (cfg0.win 1).flush t = true ∧ i ∈ ((cfg0.win 1).blk t).view.set := by
  have hi : (i 0).val < 4096 := (i 0).isLt
  have hN : cfg0.N = 16 := N_0
  refine ⟨⟨(i 0).val / 256, by rw [hN]; omega⟩, flush0_1 _, ?_⟩
  rw [mem_blk]
  intro a
  obtain ⟨i0, -, -, -⟩ := idx_facts ⟨(i 0).val / 256, by rw [hN]; omega⟩
  match a with
  | ⟨0, _⟩ =>
    show win0_1.index _ (0 : Fin 1) * 256 ≤ (i 0).val ∧ (i 0).val < win0_1.index _ (0 : Fin 1) * 256 + 256
    rw [i0]
    show (i 0).val / 256 * 256 ≤ (i 0).val ∧ (i 0).val < (i 0).val / 256 * 256 + 256
    omega

/-! ## The output array -/

/-- After the 16 points the output array holds every sample's gain. -/
theorem arrAt0_gains (c : Dev nD) :
    (dat0 (F := Ideal) V c).arrAt 1 cfg0.N = fun i => Cert.PairRank.gain (Cert.PairRank.cube (V c main_arg1)) (i 0) :=
  (dat0 V c).arrAt_eq_of_cover 1 (G V c) (fun t _ => flushed_eq V c t) cover

end Cert.KernelIdeal.HandValue

end
-- ==== Proof.TileMath.lean ====
/-
  The pair sums of the ranking loss, cut into an 8 × 8 grid of tiles of 512 × 512 pairs.

  Sample 512·a + r is sample r of block a. The total (and the count) over all 4096 × 4096 ordered pairs is the sum,
  over the 64 tiles (a, b) in row-major order, of the tile's own sum over its 512 × 512 pairs. A running sum that
  starts from zero and adds one tile after another therefore ends, after the 64th tile, with the total. All of this
  is re-indexing of finite sums in an additive commutative monoid; nothing here needs any value to be finite.
-/
import proofs.«115636_j33612414058531_1_alg».proof.Proof.Spec

noncomputable section

namespace Cert.PairRank

open scoped BigOperators

/-- sample r of block a: 512·a + r -/
def row (a : Fin 8) (r : Fin 512) : Fin 4096 := ⟨512 * a.val + r.val, by omega⟩

/-- (block, place in the block) ↔ sample. -/
def rowEquiv : Fin 8 × Fin 512 ≃ Fin 4096 where
  toFun p := row p.1 p.2
  invFun i := (⟨i.val / 512, by omega⟩, ⟨i.val % 512, Nat.mod_lt _ (by decide)⟩)
  left_inv := by
    rintro ⟨a, r⟩
    refine Prod.ext (Fin.ext ?_) (Fin.ext ?_)
    · show (512 * a.val + r.val) / 512 = a.val
      omega
    · show (512 * a.val + r.val) % 512 = r.val
      omega
  right_inv := by
    intro i
    refine Fin.ext ?_
    show 512 * (i.val / 512) + i.val % 512 = i.val
    omega

/-- A sum over the 4096 samples is the sum over the 8 blocks of the sums over each block's 512 samples. -/
theorem sum_rows {M : Type*} [AddCommMonoid M] (f : Fin 4096 → M) :
    ∑ i, f i = ∑ a : Fin 8, ∑ r : Fin 512, f (row a r) := by
  rw [← Equiv.sum_comp rowEquiv f, Fintype.sum_prod_type]
  rfl

/-- A double sum over ordered pairs of samples, tile by tile. -/
theorem sum_pairs_tiles {M : Type*} [AddCommMonoid M] (f : Fin 4096 → Fin 4096 → M) :
    ∑ i, ∑ j, f i j = ∑ a : Fin 8, ∑ b : Fin 8, ∑ r : Fin 512, ∑ c : Fin 512, f (row a r) (row b c) := by
  rw [sum_rows (fun i => ∑ j, f i j)]
  refine Finset.sum_congr rfl (fun a _ => ?_)
  calc ∑ r : Fin 512, ∑ j, f (row a r) j
      = ∑ r : Fin 512, ∑ b : Fin 8, ∑ c : Fin 512, f (row a r) (row b c) :=
        Finset.sum_congr rfl (fun r _ => sum_rows (fun j => f (row a r) j))
    _ = ∑ b : Fin 8, ∑ r : Fin 512, ∑ c : Fin 512, f (row a r) (row b c) := Finset.sum_comm

def tileTotal (γ ν : Fin 4096 → EReal) (a b : Fin 8) : EReal :=
  ∑ r : Fin 512, ∑ c : Fin 512, term γ ν (row a r) (row b c)

def tileCount (ν : Fin 4096 → EReal) (a b : Fin 8) : EReal :=
  ∑ r : Fin 512, ∑ c : Fin 512, one ν (row a r) (row b c)

/-- the tile the n-th grid point of the 8 × 8 grid works on, row-major: (n / 8, n % 8) -/
def tileA (n : ℕ) : Fin 8 := ⟨n / 8 % 8, Nat.mod_lt _ (by decide)⟩
def tileB (n : ℕ) : Fin 8 := ⟨n % 8, Nat.mod_lt _ (by decide)⟩

/-- (tile row, tile column) ↔ place in the row-major order of the 64 tiles. -/
def gridEquiv : Fin 8 × Fin 8 ≃ Fin 64 where
  toFun p := ⟨8 * p.1.val + p.2.val, by omega⟩
  invFun k := (tileA k.val, tileB k.val)
  left_inv := by
    rintro ⟨a, b⟩
    refine Prod.ext (Fin.ext ?_) (Fin.ext ?_)
    · show (8 * a.val + b.val) / 8 % 8 = a.val
      omega
    · show (8 * a.val + b.val) % 8 = b.val
      omega
  right_inv := by
    intro k
    refine Fin.ext ?_
    show 8 * (k.val / 8 % 8) + k.val % 8 = k.val
    omega

/-- The sum over the first 64 grid points, in row-major order, is the sum over the 8 × 8 tiles. -/
theorem sum_grid {M : Type*} [AddCommMonoid M] (g : Fin 8 → Fin 8 → M) :
    ∑ k ∈ Finset.range 64, g (tileA k) (tileB k) = ∑ a : Fin 8, ∑ b : Fin 8, g a b := by
  rw [Finset.sum_range (fun k => g (tileA k) (tileB k)), ← Fintype.sum_prod_type' g]
  exact Equiv.sum_comp gridEquiv.symm (fun p : Fin 8 × Fin 8 => g p.1 p.2)

/-- the running total after grid point n: the kernel starts from zero at point 0 and adds each tile's total to what
the previous point left, in this order: previous + tile -/
def accTotal (γ ν : Fin 4096 → EReal) : ℕ → EReal
  | 0 => 0 + tileTotal γ ν (tileA 0) (tileB 0)
  | n + 1 => accTotal γ ν n + tileTotal γ ν (tileA (n + 1)) (tileB (n + 1))

/-- the running count after grid point n, in the same way -/
def accCount (ν : Fin 4096 → EReal) : ℕ → EReal
  | 0 => 0 + tileCount ν (tileA 0) (tileB 0)
  | n + 1 => accCount ν n + tileCount ν (tileA (n + 1)) (tileB (n + 1))

theorem accTotal_eq_sum (γ ν : Fin 4096 → EReal) (n : ℕ) :
    accTotal γ ν n = ∑ k ∈ Finset.range (n + 1), tileTotal γ ν (tileA k) (tileB k) := by
  induction n with
  | zero => simp [accTotal]
  | succ n ih => rw [accTotal, ih, Finset.sum_range_succ _ (n + 1)]

theorem accCount_eq_sum (ν : Fin 4096 → EReal) (n : ℕ) :
    accCount ν n = ∑ k ∈ Finset.range (n + 1), tileCount ν (tileA k) (tileB k) := by
  induction n with
  | zero => simp [accCount]
  | succ n ih => rw [accCount, ih, Finset.sum_range_succ _ (n + 1)]

theorem accTotal_last (γ ν : Fin 4096 → EReal) : accTotal γ ν 63 = total γ ν := by
  rw [accTotal_eq_sum, sum_grid (fun a b => tileTotal γ ν a b), total, sum_pairs_tiles]
  rfl

theorem accCount_last (ν : Fin 4096 → EReal) : accCount ν 63 = count ν := by
  rw [accCount_eq_sum, sum_grid (fun a b => tileCount ν a b), count, sum_pairs_tiles]
  rfl

end Cert.PairRank

end
-- ==== Proof.KI.TilePay.lean ====
/-
  The arithmetic of one 512 × 512 tile of pairs, read at the exact (extended-real) values.

  At grid point (a, b) the body holds four blocks of 512 values: the gains of block a (rows), the gains of block b
  (columns), the norms of block a (rows) and the norms of block b (columns). The pair (r, c) of the tile counts when the
  column's norm is below the row's and sample 512·a + r comes before sample 512·b + c; a counting pair contributes
  max (gain of the column − gain of the row + margin, 0) to the total and 1 to the count. Both outputs are the
  previous value plus the double sum over the tile.
-/
import proofs.«115636_j33612414058531_1_alg».proof.Proof.Gen.KernelIdeal.Skeleton
import proofs.«115636_j33612414058531_1_alg».proof.Proof.Spec
import proofs.«115636_j33612414058531_1_alg».proof.Proof.TileMath
import Idealize.ShloMosaic.Lib.ValueIdx
import Idealize.ShloMosaic.Lib.ValueLayout
import Idealize.ShloMosaic.Lib.Pipeline.Value
import Idealize.ShloMosaic.Lib.WordArith
import Idealize.ShloMosaic.Lib.KernelVsHost
import Idealize.ShloMosaic.PureOps.Ideal.Laws

noncomputable section

namespace Cert.KernelIdeal.HandValue

open Cert.KernelIdeal Cert.KernelIdeal.Gen Idealize.ShloMosaic Idealize.ShloMosaic.ValueIdx
open scoped BigOperators

/-! ## Layout operations at an index: a column vector and its broadcast along the rows -/

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of 512 as a column, copied along the rows: entry `(r, c)` is the vector's `r`. -/
theorem col_apply (x : (⟨1, ![512]⟩ : Shape).Idx → α) (h : S512.ShapeCasts S512x1) (h' : S512x1.Broadcasts S512x512)
    (r c : Fin 512) : broadcastTo S512x512 (shapeCast S512x1 x h) h' (ix2 r c) = x (ix1 r) :=
  (broadcastTo_a1_ab_apply _ h' r c).trans (shapeCast_a_a1_apply x h r 0)

/-- A vector of 512 as a row, copied down the columns: entry `(r, c)` is the vector's `c`. -/
theorem row_apply (x : (⟨1, ![512]⟩ : Shape).Idx → α) (h : S512.ShapeCasts S1x512) (h' : S1x512.Broadcasts S512x512)
    (r c : Fin 512) : broadcastTo S512x512 (shapeCast S1x512 x h) h' (ix2 r c) = x (ix1 c) :=
  (broadcastTo_1b_ab_apply _ h' r c).trans (shapeCast_a_1a_apply x h 0 c)

end Layout

/-! ## Words -/

/-- 512·a + r as a 32-bit word, the way the body computes it. -/
theorem word_lin (a r : ℕ) (ha : a < 8) (hr : r < 512) :
    IntOp.addi (Scalar.muli (BitVec.ofNat 32 a) 512#32) (BitVec.ofNat 32 r) = BitVec.ofNat 32 (512 * a + r) := by
  apply BitVec.eq_of_toNat_eq
  show ((BitVec.ofNat 32 a * 512#32) + BitVec.ofNat 32 r).toNat = _
  simp only [BitVec.toNat_add, BitVec.toNat_mul, BitVec.toNat_ofNat]
  omega

/-- The signed comparison of two such words is the comparison of the numbers. -/
theorem cmpi_slt_lin (a b r c : ℕ) (ha : a < 8) (hb : b < 8) (hr : r < 512) (hc : c < 512) :
    IntOp.cmpi .slt (IntOp.addi (Scalar.muli (BitVec.ofNat 32 a) 512#32) (BitVec.ofNat 32 r))
        (IntOp.addi (Scalar.muli (BitVec.ofNat 32 b) 512#32) (BitVec.ofNat 32 c))
      = BitVec.ofBool (decide (512 * a + r < 512 * b + c)) := by
  rw [word_lin a r ha hr, word_lin b c hb hc]
  show BitVec.ofBool ((BitVec.ofNat 32 (512 * a + r)).slt (BitVec.ofNat 32 (512 * b + c))) = _
  congr 1
  rw [Bool.eq_iff_iff, BitVec.slt_iff_toInt_lt, WordArith.toInt_ofNat_small _ (by omega),
    WordArith.toInt_ofNat_small _ (by omega), decide_eq_true_iff]
  omega

/-- A one-bit word widened to 32 bits and converted, at the exact values: 1 for the bit 1, 0 for the bit 0. -/
theorem sitofp_bit (b : BitVec 1) :
    (FloatOps.sitofp (F := Ideal) .f32 (b.setWidth 32) : EReal) = if b = 1#1 then 1 else 0 := by
  show ((((b.setWidth 32).toInt : ℤ) : ℝ) : EReal) = _
  rw [toInt_setWidth_bit]
  rcases BitVec.eq_zero_or_eq_one b with rfl | rfl
  · simp
  · simp

/-- `arith.select` on a decided condition is the `if`. -/
theorem select_ofBool {α : Type} (P : Prop) [Decidable P] (A B : α) :
    Scalar.select (BitVec.ofBool (decide P)) A B = if P then A else B := by
  unfold Scalar.select
  by_cases h : P <;> simp [h]

/-! ## The two lane sums of a tile -/

/-- The sum along the columns of a 512 × 512 array, at row `r`. -/
theorem sum_axis1 (v : FVec Ideal S512x512 .f32) (h : S512x512.Reduces [1] S512) (hφ : FKind.Formats .f32)
    (hacc : (0x00000000#32 : BitVec 32) = FKind.add.neutral .f32 hφ) (r : Fin 512) :
    multiReduction (F := Ideal) .add [1] S512 v 0x00000000#32 h hφ hacc (ix1 r) = ∑ c : Fin 512, v (ix2 r c) := by
  refine (Ideal.multiReduction_add_single v _ h hφ hacc (ix1 r)).trans ?_
  refine Finset.sum_congr rfl fun c _ => congrArg v ?_
  funext a
  match a with
  | ⟨0, _⟩ => exact Fin.ext rfl
  | ⟨1, _⟩ => exact Fin.ext rfl

/-- The sum down the one column of a 512 × 1 array. -/
theorem sum_axis0 (v : FVec Ideal S512x1 .f32) (h : S512x1.Reduces [0] S1) (hφ : FKind.Formats .f32)
    (hacc : (0x00000000#32 : BitVec 32) = FKind.add.neutral .f32 hφ) :
    multiReduction (F := Ideal) .add [0] S1 v 0x00000000#32 h hφ hacc (ix1 (0 : Fin 1)) = ∑ r : Fin 512, v (ix2 r (0 : Fin 1)) := by
  refine (Ideal.multiReduction_add_single v _ h hφ hacc (ix1 (0 : Fin 1))).trans ?_
  refine Finset.sum_congr rfl fun r _ => congrArg v ?_
  funext a
  match a with
  | ⟨0, _⟩ => exact Fin.ext rfl
  | ⟨1, _⟩ => exact Fin.ext rfl

/-- The one index of a 1 × 1 array. -/
theorem idx11 (y : S1x1.Idx) : y = ix2 (0 : Fin 1) (0 : Fin 1) := by
  funext a
  match a with
  | ⟨0, _⟩ => exact Fin.ext (by have : (y 0).val < 1 := idx2_lt0 y; show (y 0).val = 0; omega)
  | ⟨1, _⟩ => exact Fin.ext (by have : (y 1).val < 1 := idx2_lt1 y; show (y 1).val = 0; omega)

/-! ## The mask of a tile -/

/-- The mask at pair `(r, c)` of the tile at grid point `i`: the column's norm is below the row's, and the row's sample
comes before the column's. -/
theorem mask_apply (i : grid1.Coords) (x2 x3 : Vec Ideal S512 .f32) (r c : Fin 512) :
    k1_pay5 (F := Ideal) i x2 x3 (ix2 r c)
      = BitVec.ofBool (decide (x3 (ix1 c) < x2 (ix1 r) ∧ 512 * (i 0).val + r.val < 512 * (i 1).val + c.val)) := by
  have h0 : (i 0).val < 8 := (i 0).isLt
  have h1 : (i 1).val < 8 := (i 1).isLt
  show IntOp.andi
      (FloatOps.cmpf (F := Ideal) (φ := .f32) .ogt (broadcastTo S512x512 (shapeCast S512x1 x2 shapeCasts_S512_S512x1) broadcasts_S512x1_S512x512 (ix2 r c))
        (broadcastTo S512x512 (shapeCast S1x512 x3 shapeCasts_S512_S1x512) broadcasts_S1x512_S512x512 (ix2 r c)))
      (IntOp.cmpi .slt
        (IntOp.addi (Scalar.muli (BitVec.ofNat 32 (i 0).val) 512#32) (iota .tc S512x512 32 [0] iota_S512x512_d0_w32 (ix2 r c)))
        (IntOp.addi (Scalar.muli (BitVec.ofNat 32 (i 1).val) 512#32) (iota .tc S512x512 32 [1] iota_S512x512_d1_w32 (ix2 r c)))) = _
  rw [col_apply, row_apply, iota_single_apply, iota_single_apply]
  show IntOp.andi (BitVec.ofBool (decide (x3 (ix1 c) < x2 (ix1 r))))
      (IntOp.cmpi .slt (IntOp.addi (Scalar.muli (BitVec.ofNat 32 (i 0).val) 512#32) (BitVec.ofNat 32 r.val))
        (IntOp.addi (Scalar.muli (BitVec.ofNat 32 (i 1).val) 512#32) (BitVec.ofNat 32 c.val))) = _
  rw [cmpi_slt_lin _ _ _ _ h0 h1 r.isLt c.isLt, WordArith.andi_ofBool, ← Bool.decide_and]

theorem tile_total (i : grid1.Coords) (x0 x1 x2 x3 : Vec Ideal S512 .f32) :
    k1_pay6 (F := Ideal) i x0 x1 x2 x3 (ix2 (0 : Fin 1) (0 : Fin 1))
      = ∑ r : Fin 512, ∑ c : Fin 512,
          (if x3 (ix1 c) < x2 (ix1 r) ∧ 512 * (i 0).val + r.val < 512 * (i 1).val + c.val
            then max (x1 (ix1 c) - x0 (ix1 r) + Cert.PairRank.margin) 0 else 0) := by
  unfold k1_pay6
  dsimp only
  refine (shapeCast_a_1a_apply _ shapeCasts_S1_S1x1 0 0).trans ?_
  refine (sum_axis0 _ _ _ _).trans ?_
  refine Finset.sum_congr rfl fun r _ => ?_
  refine (shapeCast_a_a1_apply _ shapeCasts_S512_S512x1 r 0).trans ?_
  refine (sum_axis1 _ _ _ _ r).trans ?_
  refine Finset.sum_congr rfl fun c _ => ?_
  show Scalar.select (k1_pay5 (F := Ideal) i x2 x3 (ix2 r c))
      (max (((broadcastTo S512x512 (shapeCast S1x512 (shapeCast S512 x1 shapeCasts_S512_S512) shapeCasts_S512_S1x512)
              broadcasts_S1x512_S512x512 (ix2 r c) : EReal)
            - (broadcastTo S512x512 (shapeCast S512x1 (shapeCast S512 x0 shapeCasts_S512_S512) shapeCasts_S512_S512x1)
              broadcasts_S512x1_S512x512 (ix2 r c) : EReal))
          + Ideal.ofBits .f32 0x3DCCCCCD#32) (Ideal.ofBits .f32 0x00000000#32))
      (Ideal.ofBits .f32 0x00000000#32) = _
  rw [mask_apply, select_ofBool, shapeCast_self, shapeCast_self, row_apply, col_apply, Ideal.ofBits_zero_f32]
  rfl

theorem tile_count (i : grid1.Coords) (x2 x3 : Vec Ideal S512 .f32) (r c : Fin 512) :
    k1_pay7 (F := Ideal) i x2 x3 (ix2 r c)
      = if x3 (ix1 c) < x2 (ix1 r) ∧ 512 * (i 0).val + r.val < 512 * (i 1).val + c.val then (1 : EReal) else 0 := by
  show (FloatOps.sitofp (F := Ideal) .f32 ((k1_pay5 (F := Ideal) i x2 x3 (ix2 r c)).setWidth 32) : EReal) = _
  rw [sitofp_bit, mask_apply]
  refine if_congr ?_ rfl rfl
  rw [WordArith.ofBool_eq_one_iff, decide_eq_true_iff]

/-! ## The payloads -/

/-- The two outputs start from zero. -/
theorem pay_zero : k1_pay3 (F := Ideal) = fun _ => (0 : EReal) := by
  funext y
  show Ideal.ofBits .f32 0x00000000#32 = 0
  exact Ideal.ofBits_zero_f32

theorem pay_zero' : k1_pay4 (F := Ideal) = fun _ => (0 : EReal) := by
  funext y
  show Ideal.ofBits .f32 0x00000000#32 = 0
  exact Ideal.ofBits_zero_f32

/-- The running total after a tile: what was there plus the tile's double sum. -/
theorem pay_total (i : grid1.Coords) (x0 x1 x2 x3 : Vec Ideal S512 .f32) (prev : Vec Ideal S1x1 .f32) :
    k1_pay1 (F := Ideal) (k1_pay6 (F := Ideal) i x0 x1 x2 x3) prev
      = fun _ => prev (ix2 0 0) + ∑ r : Fin 512, ∑ c : Fin 512,
          (if x3 (ix1 c) < x2 (ix1 r) ∧ 512 * (i 0).val + r.val < 512 * (i 1).val + c.val
            then max (x1 (ix1 c) - x0 (ix1 r) + Cert.PairRank.margin) 0 else 0) := by
  funext y
  rw [idx11 y]
  show (shapeCast S1x1 prev shapeCasts_S1x1_S1x1 (ix2 (0 : Fin 1) (0 : Fin 1)) : EReal)
      + k1_pay6 (F := Ideal) i x0 x1 x2 x3 (ix2 (0 : Fin 1) (0 : Fin 1)) = _
  rw [shapeCast_self, tile_total]

/-- The running count after a tile: what was there plus the number of counting pairs of the tile. -/
theorem pay_count (i : grid1.Coords) (x2 x3 : Vec Ideal S512 .f32) (prev : Vec Ideal S1x1 .f32) :
    k1_pay2 (F := Ideal) (k1_pay7 (F := Ideal) i x2 x3) prev
      = fun _ => prev (ix2 0 0) + ∑ r : Fin 512, ∑ c : Fin 512,
          (if x3 (ix1 c) < x2 (ix1 r) ∧ 512 * (i 0).val + r.val < 512 * (i 1).val + c.val then (1 : EReal) else 0) := by
  funext y
  rw [idx11 y]
  unfold k1_pay2
  dsimp only
  show (shapeCast S1x1 prev shapeCasts_S1x1_S1x1 (ix2 (0 : Fin 1) (0 : Fin 1)) : EReal) + _ = _
  rw [shapeCast_self]
  refine congrArg (fun z : EReal => (prev (ix2 (0 : Fin 1) (0 : Fin 1)) : EReal) + z) ?_
  refine (shapeCast_a_1a_apply _ shapeCasts_S1_S1x1 0 0).trans ?_
  refine (sum_axis0 _ _ _ _).trans ?_
  refine Finset.sum_congr rfl fun r _ => ?_
  refine (shapeCast_a_a1_apply _ shapeCasts_S512_S512x1 r 0).trans ?_
  refine (sum_axis1 _ _ _ _ r).trans ?_
  exact Finset.sum_congr rfl fun c _ => tile_count i x2 x3 r c

end Cert.KernelIdeal.HandValue

end
-- ==== Proof.KI.Value1.lean ====
/-
  The second region (the pairwise tiles) at the extended reals: what it leaves in its two one-element results, for any
  entry contents `V`.

  Point t of the 64 works on tile (t / 8, t % 8). Element r of its four input blocks is element 512 · (t / 8) + r (rows) or
  512 · (t % 8) + r (columns) of the gains' array and of the norms' array, so the tile's double sum in the body's terms is
  the tile's share of the total (of the count): the body's mask "column norm below row norm, and row sample before column
  sample" is the specification's condition on the pair of samples. By induction on the point the two accumulators hold
  the running total and count of the tiles so far. They are written back once, after the last point, when the running
  sums over all 64 tiles are the total and the count over all pairs; that one block is the whole one-element array.
-/
import proofs.«115636_j33612414058531_1_alg».proof.Proof.KI.Dat1
import proofs.«115636_j33612414058531_1_alg».proof.Proof.KI.TilePay
import proofs.«115636_j33612414058531_1_alg».proof.Proof.Spec
import proofs.«115636_j33612414058531_1_alg».proof.Proof.TileMath
import Idealize.ShloMosaic.Lib.ValueIdx
import Idealize.ShloMosaic.Lib.Pipeline.Value
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open Cert.PairRank
open scoped BigOperators

-- the TensorCore's buffer contents when the region is entered
variable (V : (c : Dev nD) → (b : Ref sig .tc) → Buf (Elt Ideal) ((c : Thread nD τ).loc b))

/-! ## The blocks -/

/-- The index maps and the grid's coordinates over the 64 points: point `t` is tile (t / 8, t % 8). -/
theorem idx_facts1 : ∀ t : Fin cfg1.N, win1_0.index t (0 : Fin 1) = t.val / 8 ∧ win1_1.index t (0 : Fin 1) = t.val % 8
    ∧ win1_2.index t (0 : Fin 1) = t.val / 8 ∧ win1_3.index t (0 : Fin 1) = t.val % 8
    ∧ (grid1.coords t 0).val = t.val / 8 ∧ (grid1.coords t 1).val = t.val % 8 :=
  (by decide +kernel : ∀ t : Fin grid1.N, _)

/-! Element r of each input block at point `t` is the array's element 512 · (block index) + r: the gains' row block and
    column block, the norms' row block and column block. -/

theorem iblk1_0_apply (c : Dev nD) (t : Fin cfg1.N) (r : Fin 512) :
    (iblk1 V c 0 t : Vec Ideal S512 .f32) (ix1 r) = vec (V c main_v0) (row (tileA t.val) r) := by
  obtain ⟨i0, i1, i2, i3, -, -⟩ := idx_facts1 t
  have hN : t.val < 64 := Nat.lt_of_lt_of_eq t.isLt N_1
  unfold iblk1 vec
  rw [View.read_apply]
  show V c main_v0 _ = V c main_v0 _
  congr 1
  funext a
  apply Fin.ext
  match a with
  | ⟨0, _⟩ =>
    show win1_0.index t (0 : Fin 1) * 512 + 1 * r.val = 512 * (t.val / 8 % 8) + r.val
    rw [i0]; omega

theorem iblk1_1_apply (c : Dev nD) (t : Fin cfg1.N) (r : Fin 512) :
    (iblk1 V c 1 t : Vec Ideal S512 .f32) (ix1 r) = vec (V c main_v0) (row (tileB t.val) r) := by
  obtain ⟨i0, i1, i2, i3, -, -⟩ := idx_facts1 t
  have hN : t.val < 64 := Nat.lt_of_lt_of_eq t.isLt N_1
  unfold iblk1 vec
  rw [View.read_apply]
  show V c main_v0 _ = V c main_v0 _
  congr 1
  funext a
  apply Fin.ext
  match a with
  | ⟨0, _⟩ =>
    show win1_1.index t (0 : Fin 1) * 512 + 1 * r.val = 512 * (t.val % 8) + r.val
    rw [i1]; omega

theorem iblk1_2_apply (c : Dev nD) (t : Fin cfg1.N) (r : Fin 512) :
    (iblk1 V c 2 t : Vec Ideal S512 .f32) (ix1 r) = vec (V c main_arg0) (row (tileA t.val) r) := by
  obtain ⟨i0, i1, i2, i3, -, -⟩ := idx_facts1 t
  have hN : t.val < 64 := Nat.lt_of_lt_of_eq t.isLt N_1
  unfold iblk1 vec
  rw [View.read_apply]
  show V c main_arg0 _ = V c main_arg0 _
  congr 1
  funext a
  apply Fin.ext
  match a with
  | ⟨0, _⟩ =>
    show win1_2.index t (0 : Fin 1) * 512 + 1 * r.val = 512 * (t.val / 8 % 8) + r.val
    rw [i2]; omega

theorem iblk1_3_apply (c : Dev nD) (t : Fin cfg1.N) (r : Fin 512) :
    (iblk1 V c 3 t : Vec Ideal S512 .f32) (ix1 r) = vec (V c main_arg0) (row (tileB t.val) r) := by
  obtain ⟨i0, i1, i2, i3, -, -⟩ := idx_facts1 t
  have hN : t.val < 64 := Nat.lt_of_lt_of_eq t.isLt N_1
  unfold iblk1 vec
  rw [View.read_apply]
  show V c main_arg0 _ = V c main_arg0 _
  congr 1
  funext a
  apply Fin.ext
  match a with
  | ⟨0, _⟩ =>
    show win1_3.index t (0 : Fin 1) * 512 + 1 * r.val = 512 * (t.val % 8) + r.val
    rw [i3]; omega

/-! ## One tile -/

/-- The pair (r, c) of tile (t / 8, t % 8) counts in the kernel's terms exactly when the pair of samples counts. -/
theorem hit_iff (ν : Fin 4096 → EReal) (t : Fin cfg1.N) (r c' : Fin 512) :
    (ν (row (tileB t.val) c') < ν (row (tileA t.val) r) ∧ 512 * (grid1.coords t 0).val + r.val < 512 * (grid1.coords t 1).val + c'.val)
      ↔ hit ν (row (tileA t.val) r) (row (tileB t.val) c') := by
  obtain ⟨-, -, -, -, g0, g1⟩ := idx_facts1 t
  have hN : t.val < 64 := Nat.lt_of_lt_of_eq t.isLt N_1
  unfold hit
  refine and_congr Iff.rfl ?_
  rw [g0, g1]
  show _ ↔ 512 * (t.val / 8 % 8) + r.val < 512 * (t.val % 8) + c'.val
  omega

/-- The tile's double sum in the kernel's terms, over blocks that read the gains γ and the norms ν at the tile's rows and
    columns, is the tile's share of the total. -/
theorem tile_total_eq (γ ν : Fin 4096 → EReal) (t : Fin cfg1.N) (x0 x1 x2 x3 : Vec Ideal S512 .f32)
    (h0 : ∀ r, x0 (ix1 r) = γ (row (tileA t.val) r)) (h1 : ∀ r, x1 (ix1 r) = γ (row (tileB t.val) r))
    (h2 : ∀ r, x2 (ix1 r) = ν (row (tileA t.val) r)) (h3 : ∀ r, x3 (ix1 r) = ν (row (tileB t.val) r)) :
    (∑ r : Fin 512, ∑ c' : Fin 512,
      (if x3 (ix1 c') < x2 (ix1 r) ∧ 512 * (grid1.coords t 0).val + r.val < 512 * (grid1.coords t 1).val + c'.val
          then max (x1 (ix1 c') - x0 (ix1 r) + margin) 0 else 0))
      = tileTotal γ ν (tileA t.val) (tileB t.val) := by
  unfold tileTotal
  refine Finset.sum_congr rfl fun r _ => Finset.sum_congr rfl fun c' _ => ?_
  rw [h0, h1, h2, h3]
  unfold term
  exact if_congr (hit_iff ν t r c') rfl rfl

/-- The same for the count. -/
theorem tile_count_eq (ν : Fin 4096 → EReal) (t : Fin cfg1.N) (x2 x3 : Vec Ideal S512 .f32)
    (h2 : ∀ r, x2 (ix1 r) = ν (row (tileA t.val) r)) (h3 : ∀ r, x3 (ix1 r) = ν (row (tileB t.val) r)) :
    (∑ r : Fin 512, ∑ c' : Fin 512,
      (if x3 (ix1 c') < x2 (ix1 r) ∧ 512 * (grid1.coords t 0).val + r.val < 512 * (grid1.coords t 1).val + c'.val
          then (1 : EReal) else 0))
      = tileCount ν (tileA t.val) (tileB t.val) := by
  unfold tileCount
  refine Finset.sum_congr rfl fun r _ => Finset.sum_congr rfl fun c' _ => ?_
  rw [h2, h3]
  unfold PairRank.one
  exact if_congr (hit_iff ν t r c') rfl rfl

/-! ## The running total and count -/

/-- After point `n` the first accumulator holds the running total of the tiles 0 … n. -/
theorem acc1_4_eq (c : Dev nD) : ∀ (n : ℕ) (hn : n < cfg1.N),
    acc1_4 V c n hn = fun _ => accTotal (vec (V c main_v0)) (vec (V c main_arg0)) n
  | 0, hn => by
    show step1_4 (grid1.coords ⟨0, hn⟩) (iblk1 V c 0 ⟨0, hn⟩) (iblk1 V c 1 ⟨0, hn⟩) (iblk1 V c 2 ⟨0, hn⟩) (iblk1 V c 3 ⟨0, hn⟩) (k1_pay3 (F := Ideal)) = _
    unfold step1_4
    rw [pay_total, pay_zero]
    funext y
    show (0 : EReal) + _ = 0 + tileTotal _ _ (tileA 0) (tileB 0)
    exact congrArg (fun z : EReal => 0 + z) (tile_total_eq _ _ ⟨0, hn⟩ _ _ _ _
      (iblk1_0_apply V c _) (iblk1_1_apply V c _) (iblk1_2_apply V c _) (iblk1_3_apply V c _))
  | n + 1, hn => by
    show step1_4 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (acc1_4 V c n (Nat.lt_of_succ_lt hn)) = _
    unfold step1_4
    rw [acc1_4_eq c n, pay_total]
    funext y
    show accTotal _ _ n + _ = accTotal _ _ n + tileTotal _ _ (tileA (n + 1)) (tileB (n + 1))
    exact congrArg (fun z : EReal => accTotal (vec (V c main_v0)) (vec (V c main_arg0)) n + z) (tile_total_eq _ _ ⟨n + 1, hn⟩ _ _ _ _
      (iblk1_0_apply V c _) (iblk1_1_apply V c _) (iblk1_2_apply V c _) (iblk1_3_apply V c _))

/-- After point `n` the second accumulator holds the running count of the tiles 0 … n. -/
theorem acc1_5_eq (c : Dev nD) : ∀ (n : ℕ) (hn : n < cfg1.N),
    acc1_5 V c n hn = fun _ => accCount (vec (V c main_arg0)) n
  | 0, hn => by
    show step1_5 (grid1.coords ⟨0, hn⟩) (iblk1 V c 2 ⟨0, hn⟩) (iblk1 V c 3 ⟨0, hn⟩) (k1_pay4 (F := Ideal)) = _
    unfold step1_5
    rw [pay_count, pay_zero']
    funext y
    show (0 : EReal) + _ = 0 + tileCount _ (tileA 0) (tileB 0)
    exact congrArg (fun z : EReal => 0 + z) (tile_count_eq _ ⟨0, hn⟩ _ _ (iblk1_2_apply V c _) (iblk1_3_apply V c _))
  | n + 1, hn => by
    show step1_5 (grid1.coords ⟨n + 1, hn⟩) (iblk1 V c 2 ⟨n + 1, hn⟩) (iblk1 V c 3 ⟨n + 1, hn⟩) (acc1_5 V c n (Nat.lt_of_succ_lt hn)) = _
    unfold step1_5
    rw [acc1_5_eq c n, pay_count]
    funext y
    show accCount _ n + _ = accCount _ n + tileCount _ (tileA (n + 1)) (tileB (n + 1))
    exact congrArg (fun z : EReal => accCount (vec (V c main_arg0)) n + z) (tile_count_eq _ ⟨n + 1, hn⟩ _ _ (iblk1_2_apply V c _) (iblk1_3_apply V c _))

/-! ## The two results' arrays -/

/-- The only point that writes the results back is the last one. -/
theorem last_point (t : Fin cfg1.N) (h : t.val % 64 = 63) : t.val = 63 := by
  have := Nat.lt_of_lt_of_eq t.isLt N_1; omega

/-- What the region leaves in result 0, as contents of its one-element array. -/
abbrev GT (c : Dev nD) : S1x1.Idx → EReal := fun _ => total (vec (V c main_v0)) (vec (V c main_arg0))

/-- The one write-back, after the last point, writes it: the accumulator then holds the sum over all 64 tiles. -/
theorem flushed1_4_eq (c : Dev nD) (t : Fin cfg1.N) (hf : (cfg1.win 4).flush t = true) :
    (dat1 (F := Ideal) V c).flushed 4 t = ((cfg1.win 4).blk t).view.read (Elt Ideal) (GT V c) := by
  have h63 : t.val = 63 := last_point t ((flush1_4 t).mp hf)
  show (cfg1.win 4).cut (grid1.coords t) ((dat1 V c).after 4 t) = _
  rw [after1_4, acc1_4_eq]
  funext j
  rw [View.read_apply]
  show accTotal _ _ t.val = total _ _
  rw [h63, accTotal_last]

theorem mem_blk1_4 (t : Fin cfg1.N) (i : S1x1.Idx) :
    i ∈ ((cfg1.win 4).blk t).view.set ↔ ∀ a : Fin 2, win1_4.index t a * S1x1.size a ≤ (i a).val ∧ (i a).val < win1_4.index t a * S1x1.size a + S1x1.size a := by
  show i ∈ ((View.whole main_v1_0).slice (win1_4.rect t)).set ↔ _
  rw [View.set_slice_whole, Rect.mem_set_unit]
  exact Iff.rfl

/-- The last point's block is the whole one-element array. -/
theorem cover1_4 (i : S1x1.Idx) : ∃ t : Fin cfg1.N, (cfg1.win 4).flush t = true ∧ i ∈ ((cfg1.win 4).blk t).view.set := by
  refine ⟨⟨63, by rw [show cfg1.N = 64 from N_1]; decide⟩, (flush1_4 _).mpr rfl, ?_⟩
  rw [mem_blk1_4]
  intro a
  have h0 : (i 0).val < 1 := (i 0).isLt
  have h1 : (i 1).val < 1 := (i 1).isLt
  match a with
  | ⟨0, _⟩ =>
    show win1_4.index _ (0 : Fin 2) * 1 ≤ (i 0).val ∧ (i 0).val < win1_4.index _ (0 : Fin 2) * 1 + 1
    rw [show win1_4.index _ (0 : Fin 2) = 0 from rfl]; omega
  | ⟨1, _⟩ =>
    show win1_4.index _ (1 : Fin 2) * 1 ≤ (i 1).val ∧ (i 1).val < win1_4.index _ (1 : Fin 2) * 1 + 1
    rw [show win1_4.index _ (1 : Fin 2) = 0 from rfl]; omega

/-- What the region leaves in result 1, as contents of its one-element array. -/
abbrev GC (c : Dev nD) : S1x1.Idx → EReal := fun _ => PairRank.count (vec (V c main_arg0))

/-- The one write-back, after the last point, writes it: the accumulator then holds the sum over all 64 tiles. -/
theorem flushed1_5_eq (c : Dev nD) (t : Fin cfg1.N) (hf : (cfg1.win 5).flush t = true) :
    (dat1 (F := Ideal) V c).flushed 5 t = ((cfg1.win 5).blk t).view.read (Elt Ideal) (GC V c) := by
  have h63 : t.val = 63 := last_point t ((flush1_5 t).mp hf)
  show (cfg1.win 5).cut (grid1.coords t) ((dat1 V c).after 5 t) = _
  rw [after1_5, acc1_5_eq]
  funext j
  rw [View.read_apply]
  show accCount _ t.val = PairRank.count _
  rw [h63, accCount_last]

theorem mem_blk1_5 (t : Fin cfg1.N) (i : S1x1.Idx) :
    i ∈ ((cfg1.win 5).blk t).view.set ↔ ∀ a : Fin 2, win1_5.index t a * S1x1.size a ≤ (i a).val ∧ (i a).val < win1_5.index t a * S1x1.size a + S1x1.size a := by
  show i ∈ ((View.whole main_v1_1).slice (win1_5.rect t)).set ↔ _
  rw [View.set_slice_whole, Rect.mem_set_unit]
  exact Iff.rfl

/-- The last point's block is the whole one-element array. -/
theorem cover1_5 (i : S1x1.Idx) : ∃ t : Fin cfg1.N, (cfg1.win 5).flush t = true ∧ i ∈ ((cfg1.win 5).blk t).view.set := by
  refine ⟨⟨63, by rw [show cfg1.N = 64 from N_1]; decide⟩, (flush1_5 _).mpr rfl, ?_⟩
  rw [mem_blk1_5]
  intro a
  have h0 : (i 0).val < 1 := (i 0).isLt
  have h1 : (i 1).val < 1 := (i 1).isLt
  match a with
  | ⟨0, _⟩ =>
    show win1_5.index _ (0 : Fin 2) * 1 ≤ (i 0).val ∧ (i 0).val < win1_5.index _ (0 : Fin 2) * 1 + 1
    rw [show win1_5.index _ (0 : Fin 2) = 0 from rfl]; omega
  | ⟨1, _⟩ =>
    show win1_5.index _ (1 : Fin 2) * 1 ≤ (i 1).val ∧ (i 1).val < win1_5.index _ (1 : Fin 2) * 1 + 1
    rw [show win1_5.index _ (1 : Fin 2) = 0 from rfl]; omega

/-- After the 64 points the first result holds the total over all pairs, of the gains the first region left and the norms. -/
theorem arrAt1_total (c : Dev nD) :
    (dat1 (F := Ideal) V c).arrAt 4 cfg1.N = fun _ => Cert.PairRank.total (Cert.PairRank.vec (V c main_v0)) (Cert.PairRank.vec (V c main_arg0)) :=
  (dat1 V c).arrAt_eq_of_cover 4 (GT V c) (flushed1_4_eq V c) cover1_4

/-- After the 64 points the second result holds the number of counting pairs. -/
theorem arrAt1_count (c : Dev nD) :
    (dat1 (F := Ideal) V c).arrAt 5 cfg1.N = fun _ => Cert.PairRank.count (Cert.PairRank.vec (V c main_arg0)) :=
  (dat1 V c).arrAt_eq_of_cover 5 (GC V c) (flushed1_5_eq V c) cover1_5

end Cert.KernelIdeal.HandValue
end
-- ==== Proof.KI.KernelValue.lean ====
/-
  The idealized kernel's run, with its result named by the specification.

  The run of the whole program leaves in the result buffer what the last ten scalar operations make of the two
  1 × 1 outputs of the second region, and leaves both argument arrays as they were. The second region's outputs
  are the total and the count over all ordered pairs, computed from the norms and from the array of gains the
  first region left; the first region leaves every sample's gain, computed from the second argument array, and
  does not touch the norms. Put together, the result buffer holds the ranking loss of the two argument arrays.
-/
import proofs.«115636_j33612414058531_1_alg».proof.Proof.KI.Chain
import proofs.«115636_j33612414058531_1_alg».proof.Proof.KI.Frame
import proofs.«115636_j33612414058531_1_alg».proof.Proof.KI.Tail
import proofs.«115636_j33612414058531_1_alg».proof.Proof.KI.Value0
import proofs.«115636_j33612414058531_1_alg».proof.Proof.KI.Value1
import proofs.«115636_j33612414058531_1_alg».proof.Proof.Spec

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open Cert.PairRank

variable (m : (ℓ : Loc nD τ sig) → Buf (Elt Ideal) ℓ)

/-- The second region is entered with every sample's gain in the first region's result array. -/
theorem U1_main_v0 (c : Dev nD) :
    vec (U1 m c main_v0) = gain (cube (m ((c.tc : Thread nD τ).loc main_arg1))) := by
  show vec (W1 m c main_v0) = _
  rw [W1_main_v0, arrAt0_gains (U0 m) c]
  rfl

/-- The norms pass through the first region untouched. -/
theorem U1_main_arg0 (c : Dev nD) : U1 m c main_arg0 = m ((c.tc : Thread nD τ).loc main_arg0) := by
  show W1 m c main_arg0 = _
  unfold W1
  rw [Function.update_of_ne (StableHlo.devRef_ne_of_ne (by decide) : (Proc.devRef .tc main_arg0 : DevRef τ sig) ≠ Proc.devRef .tc main_v0)]

/-- The run ends with the ranking loss of the two argument arrays in the result buffer, and the arguments unchanged. -/
theorem run_loss (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread nD τ).loc main_v7) = Cert.PairRank.loss (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (Cert.KernelIdeal.defs (F := Ideal)) _ _).mono (fun r h c => ?_) (run_named m ρ)
  obtain ⟨h7, h0, h1⟩ := h c
  refine ⟨?_, h0, h1⟩
  have hT : outs m 2 main_v1_0 c
      = fun _ => total (vec (U1 m c main_v0)) (vec (U1 m c main_arg0)) := by
    show W2 m c main_v1_0 = _
    rw [W2_main_v1_0]
    exact arrAt1_total (U1 m) c
  have hC : outs m 2 main_v1_1 c = fun _ => count (vec (U1 m c main_arg0)) := by
    show W2 m c main_v1_1 = _
    rw [W2_main_v1_1]
    exact arrAt1_count (U1 m) c
  rw [h7, V4_main_v7 m (outs m) c _ _ hT hC, U1_main_v0, U1_main_arg0]
  rfl

end Cert.KernelIdeal.HandValue

end
-- ==== Proof.RefValue.lean ====
/-
  The reference program's result, at the extended reals, is the ranking loss of the shared specification.

  The result term is read one stage at a time. The last three stages are the specification's closing step applied to
  the total (a float sum over all 4096 × 4096 pairs) and the count (an integer sum of the pairs' mask bits, converted
  to a float). Each of the two is brought to the specification's double sum over pairs:
    · the mask bit of the pair (a, b) is one exactly when norm a > norm b and a < b (the two coordinate words are
      below 2³¹, so their signed comparison is the comparison of the coordinates);
    · the gain of sample b is the sum of its 8 × 1024 entries: the sum over the index set that the reduction sends to b,
      re-indexed by coordinates;
    · the summand of the total at (a, b) is max (gain b − gain a + margin, 0) where the bit is one, and zero elsewhere;
    · the 32-bit sum of at most 2²⁴ zeros and ones is the word of the number of ones, which is below 2³¹, so its signed
      value is that number and the conversion gives it as an extended real.
-/
import proofs.«115636_j33612414058531_1_alg».proof.Proof.RefReadP
import proofs.«115636_j33612414058531_1_alg».proof.Proof.Spec
import proofs.«115636_j33612414058531_1_alg».proof.Defs
import Idealize.ShloMosaic.Lib.Affine

noncomputable section

open Idealize.ShloMosaic Idealize.ShloMosaic.TcCoe Idealize.SL.Sem Idealize.ShloMosaic.ValueIdx
open scoped BigOperators

namespace Cert.ReferenceIdeal.RefValue

open Cert.ReferenceIdeal Cert.ReferenceIdeal.Gen Cert.ReferenceIdeal.ReadP Cert.PairRank

/-! ## Words: a sum of bits, a small word's signed value, a comparison of two small words -/

/-- Word addition folded over a set of one-bit words widened to 32 bits is the word of the number of ones (modulo
    2³², whatever the set's size). -/
theorem fold_addi_bits {ι : Type} [DecidableEq ι] (S : Finset ι) (f : ι → BitVec 1) :
    S.fold IntOp.addi 0#32 (fun i => (f i).setWidth 32) = BitVec.ofNat 32 (∑ i ∈ S, (f i).toNat) := by
  induction S using Finset.induction_on with
  | empty => rfl
  | insert a S ha ih =>
    rw [Finset.fold_insert ha, Finset.sum_insert ha, ih]
    apply BitVec.eq_of_toNat_eq
    have h1 : (f a).toNat < 2 := (f a).isLt
    simp only [IntOp.addi, BitVec.toNat_add, BitVec.toNat_setWidth, BitVec.toNat_ofNat]
    omega

/-- A sum of bits over a set is at most the set's size. -/
theorem sum_bits_le_card {ι : Type} (S : Finset ι) (f : ι → BitVec 1) : ∑ i ∈ S, (f i).toNat ≤ S.card := by
  have := Finset.sum_le_card_nsmul S (fun i => (f i).toNat) 1 (fun i _ => by have : (f i).toNat < 2 := (f i).isLt; omega)
  simpa using this

/-- The 32-bit word of a natural number below 2³¹ has that number as its signed value. -/
theorem toInt_ofNat_small (n : Nat) (h : n < 2 ^ 31) : (BitVec.ofNat 32 n).toInt = (n : Int) := by
  rw [BitVec.toInt_eq_toNat_cond, BitVec.toNat_ofNat]
  have : n % 2 ^ 32 = n := Nat.mod_eq_of_lt (by omega)
  rw [this, if_pos (by omega)]

/-- The signed comparison of the words of two naturals below 2³¹ is the comparison of the naturals. -/
theorem slt_iota (i j : Nat) (hi : i < 2 ^ 31) (hj : j < 2 ^ 31) :
    IntOp.cmpi .slt (BitVec.ofNat 32 i) (BitVec.ofNat 32 j) = 1#1 ↔ i < j := by
  rw [IntOp.cmpi_slt, toInt_ofNat_small i hi, toInt_ofNat_small j hj]
  omega

/-! ## A rank-3 index set by coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The gains: the sum over the last two axes, read at a sample -/

/-- An index of the 4096 × 8 × 1024 array reduces to sample `b` exactly when its first coordinate is `b`. -/
theorem drop_iff (i : S4096x8x1024.Idx) (b : Fin 4096) :
    reducesTo_S4096x8x1024_S4096_d1_2.drop i = ix1 b ↔ (i 0).val = b.val := by
  have hv : ((reducesTo_S4096x8x1024_S4096_d1_2.drop i) 0 : Nat) = i 0 :=
    Shape.ReducesTo.drop_apply_val_of_eq reducesTo_S4096x8x1024_S4096_d1_2 i 0 0
  constructor
  · intro h
    have h0 := congrFun h 0
    rw [← hv, h0]
  · intro h
    funext d
    match d with
    | ⟨0, _⟩ => exact Fin.ext (by rw [← h]; exact hv)

/-- The first reduction at sample `b`: zero plus the sum of the sample's 8 × 1024 entries. -/
theorem gain_eq (x1 : (⟨S4096x8x1024, .f32⟩ : BufTy).Contents (Elt Ideal)) (b : Fin 4096) :
    val_main_v0 (F := Ideal) x1 (ix1 b) = gain (cube x1) b := by
  unfold val_main_v0
  simp only [Host.reduceAdd, Ideal.hostReduceAdd_def]
  unfold Ideal.hostReduceAdd
  rw [val_main_cst_apply, Ideal.ofBits_def, Ideal.ofBits_zero_f32, zero_add,
    Finset.filter_congr (fun i _ => drop_iff i b), Finset.sum_filter, sum_idx3, Finset.sum_eq_single b]
  · show (∑ h : Fin 8, ∑ n : Fin 1024, if b.val = b.val then x1 (ix3 b h n) else 0) = _
    simp only [if_true]
    rfl
  · intro a _ hab
    show (∑ h : Fin 8, ∑ n : Fin 1024, if a.val = b.val then x1 (ix3 a h n) else 0) = 0
    simp only [if_neg (Fin.val_ne_of_ne hab), Finset.sum_const_zero]
  · intro h; exact absurd (Finset.mem_univ b) h

/-! ## The mask bit of a pair -/

theorem ofBool_eq_one' {p : Bool} : BitVec.ofBool p = 1#1 ↔ p = true := by cases p <;> decide

/-- The two broadcasts of the norms read, at the pair (a, b), the norm of `a` down the rows and the norm of `b` along the columns. -/
theorem idx_n_row (a b : Fin 4096) : idx_main_v9 (idx_main_v11 (ix2 a b)) = ix1 a := by
  funext d; match d with | ⟨0, _⟩ => rfl
theorem idx_n_col (a b : Fin 4096) : idx_main_v10 (idx_main_v12 (ix2 a b)) = ix1 b := by
  funext d; match d with | ⟨0, _⟩ => rfl

/-- The mask bit of the pair (a, b) is one exactly when the pair counts. -/
theorem bit_iff (x0 : (⟨S4096, .f32⟩ : BufTy).Contents (Elt Ideal)) (a b : Fin 4096) :
    val_main_v19 (F := Ideal) x0 (ix2 a b) = 1#1 ↔ hit (vec x0) a b := by
  rw [val_main_v19_apply, IntOp.andi_eq_one, val_main_v13_apply, val_main_v11_apply, val_main_v9_apply,
    val_main_v12_apply, val_main_v10_apply, val_main_v18_apply, val_main_v16_apply, val_main_v14_apply,
    val_main_v1_apply, val_main_v17_apply, val_main_v15_apply, val_main_v1_apply, idx_n_row, idx_n_col]
  refine and_congr ?_ ?_
  · show BitVec.ofBool (decide (x0 (ix1 b) < x0 (ix1 a))) = 1#1 ↔ _
    rw [ofBool_eq_one', decide_eq_true_iff]
    rfl
  · show IntOp.cmpi .slt (BitVec.ofNat 32 a.val) (BitVec.ofNat 32 b.val) = 1#1 ↔ a.val < b.val
    exact slt_iota _ _ (by have := a.isLt; omega) (by have := b.isLt; omega)

/-- The mask bit as a number is the pair's contribution to the count. -/
theorem bit_cast (x0 : (⟨S4096, .f32⟩ : BufTy).Contents (Elt Ideal)) (a b : Fin 4096) :
    (((val_main_v19 (F := Ideal) x0 (ix2 a b)).toNat : Nat) : EReal) = one (vec x0) a b := by
  unfold PairRank.one
  by_cases h : hit (vec x0) a b
  · rw [if_pos h, (bit_iff x0 a b).mpr h]
    show ((1 : Nat) : EReal) = 1
    exact Nat.cast_one
  · rw [if_neg h, eq_zero_of_ne_one (fun e => h ((bit_iff x0 a b).mp e))]
    show ((0 : Nat) : EReal) = 0
    exact Nat.cast_zero

/-! ## The count -/

/-- There are 4096 × 4096 pairs. -/
theorem card_idx : (Finset.univ : Finset S4096x4096.Idx).card = 4096 * 4096 := by
  rw [Finset.card_univ, Fintype.card_congr (idxEquiv2 (n0 := 4096) (n1 := 4096)), Fintype.card_prod, Fintype.card_fin]

/-- The count: the integer sum of the mask bits does not wrap (it is at most 2²⁴), so its conversion is the number of
    counting pairs as an extended real, the specification's count. -/
theorem count_eq (x0 : (⟨S4096, .f32⟩ : BufTy).Contents (Elt Ideal)) :
    val_main_v25 (F := Ideal) x0 = fun _ => count (vec x0) := by
  funext i
  rw [val_main_v25_apply]
  unfold val_main_v24
  rw [Host.reduce_eq_fold, Finset.filter_true_of_mem (fun j _ => funext fun a => a.elim0), val_main_c_apply]
  have h23 : val_main_v23 (F := Ideal) x0 = fun j => (val_main_v19 (F := Ideal) x0 j).setWidth 32 := rfl
  rw [h23, fold_addi_bits]
  have hb : ∑ j : S4096x4096.Idx, (val_main_v19 (F := Ideal) x0 j).toNat < 2 ^ 31 := by
    have h := sum_bits_le_card Finset.univ (val_main_v19 (F := Ideal) x0)
    rw [card_idx] at h
    exact lt_of_le_of_lt h (by norm_num)
  show ((((BitVec.ofNat 32 (∑ j : S4096x4096.Idx, (val_main_v19 (F := Ideal) x0 j).toNat)).toInt : ℝ)) : EReal) = _
  rw [toInt_ofNat_small _ hb, Int.cast_natCast, EReal.coe_coe_eq_natCast, Nat.cast_sum, sum_idx2]
  unfold PairRank.count
  exact Finset.sum_congr rfl fun a _ => Finset.sum_congr rfl fun b _ => bit_cast x0 a b

/-! ## The total -/

/-- The two broadcasts of the gains read, at the pair (a, b), the gain of `b` along the columns and the gain of `a` down the rows. -/
theorem idx_col (a b : Fin 4096) : idx_main_v2 (idx_main_v4 (ix2 a b)) = ix1 b := by
  funext d; match d with | ⟨0, _⟩ => rfl
theorem idx_row (a b : Fin 4096) : idx_main_v3 (idx_main_v5 (ix2 a b)) = ix1 a := by
  funext d; match d with | ⟨0, _⟩ => rfl

/-- The summand of the pair (a, b) is that pair's contribution to the total. -/
theorem term_eq (x0 : (⟨S4096, .f32⟩ : BufTy).Contents (Elt Ideal)) (x1 : (⟨S4096x8x1024, .f32⟩ : BufTy).Contents (Elt Ideal))
    (a b : Fin 4096) : val_main_v21 (F := Ideal) x0 x1 (ix2 a b) = term (gain (cube x1)) (vec x0) a b := by
  rw [val_main_v21_apply, val_main_v20_apply, val_main_v8_apply, val_main_v6_apply, val_main_v4_apply, val_main_v2_apply,
    val_main_v5_apply, val_main_v3_apply, val_main_v7_apply, val_main_cst_0_apply, val_main_call0_v0_apply,
    val_main_call0_cst_apply, val_main_call1_v1_apply, val_main_call1_v0_apply, val_main_cst_1_apply, idx_col, idx_row,
    gain_eq, gain_eq]
  simp only [Ideal.maximumf_def, Ideal.addf_def, Ideal.subf_def, Ideal.ofBits_def, Ideal.ofBits_zero_f32]
  unfold term
  by_cases h : hit (vec x0) a b
  · rw [if_pos h, (bit_iff x0 a b).mpr h, select_one]; rfl
  · rw [if_neg h, eq_zero_of_ne_one (fun e => h ((bit_iff x0 a b).mp e)), select_zero]

/-- The total: zero plus the sum over all index pairs, as the double sum over the coordinates. -/
theorem total_eq (x0 : (⟨S4096, .f32⟩ : BufTy).Contents (Elt Ideal)) (x1 : (⟨S4096x8x1024, .f32⟩ : BufTy).Contents (Elt Ideal)) :
    val_main_v22 (F := Ideal) x0 x1 = fun _ => total (gain (cube x1)) (vec x0) := by
  funext i
  rw [val_main_v22_apply, val_main_cst_2_apply, Ideal.ofBits_def, Ideal.ofBits_zero_f32, zero_add, sum_idx2]
  unfold total
  exact Finset.sum_congr rfl fun a _ => Finset.sum_congr rfl fun b _ => term_eq x0 x1 a b

/-! ## The result -/

/-- The last stages are the specification's closing step on the total and the count. -/
theorem finish_eq (x0 : (⟨S4096, .f32⟩ : BufTy).Contents (Elt Ideal)) (x1 : (⟨S4096x8x1024, .f32⟩ : BufTy).Contents (Elt Ideal)) :
    val_main_v29 (F := Ideal) x0 x1 = finish (val_main_v22 (F := Ideal) x0 x1) (val_main_v25 (F := Ideal) x0) := rfl

/-- The reference's result term is the loss of the two argument arrays. -/
theorem result_eq (x0 : (⟨S4096, .f32⟩ : BufTy).Contents (Elt Ideal)) (x1 : (⟨S4096x8x1024, .f32⟩ : BufTy).Contents (Elt Ideal)) :
    val_main_v29 (F := Ideal) x0 x1 = loss x0 x1 := by
  rw [finish_eq, total_eq, count_eq]
  rfl

/-! ## The reference's run -/

section Run
variable [Cert.ReferenceIdeal.Facts] [Cert.Pre_finite_inputs.Facts]

/-- The reference runs and leaves its arguments unchanged. -/
theorem frame_ri : Cert.frame_ReferenceIdeal := fun m ρ _ =>
  (θ_run Cert.ReferenceIdeal.defs _ _).mono (fun _ h c => (h c).2) (Cert.ReferenceIdeal.ValueP.run (F := Ideal) m ρ)

/-- Every execution of the reference ends with the loss of its arguments in its result, the arguments unchanged. -/
theorem run_loss (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v29)
            = loss (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run Cert.ReferenceIdeal.defs _ _).mono
    (fun _ h c => ⟨((h c).1.trans (val_main_v29_eq _ _)).trans (result_eq _ _), (h c).2⟩)
    (Cert.ReferenceIdeal.ValueP.run (F := Ideal) m ρ)

end Run

end Cert.ReferenceIdeal.RefValue

end
-- ==== Proof.lean ====
/-
  The five claims about the pairwise ranking loss.

  Both idealized programs compute one function of the norms and of the 4096 × 8 × 1024 array: each sample's gain is the
  sum of its entries; over the ordered pairs (i, j) with i before j and norm i larger than norm j, the total of the
  positive parts of (gain j − gain i + margin) and the number of such pairs; the result is total / max(count, 1), or
  zero when no pair counts. The kernel reaches it in two regions — the gains block by block, then an 8 × 8 grid of
  512 × 512 tiles accumulated into two running sums — and three closing operations; the reference in one pass over the
  full 4096 × 4096 matrix, counting in integers. Over the extended reals addition is commutative and associative, so the
  tiled sums are the full sums in another order, and a count of at most 2^24 ones is the same number summed as integers
  or as reals: no finiteness of the inputs is used.

  Each kernel program's frame — it runs to the end, faults nowhere, and leaves its two arguments unchanged — is proved
  region by region (the word-level program and the idealized one are the same text in two namespaces). The idealized
  kernel's run is the same run with its result named.
-/
import proofs.«115636_j33612414058531_1_alg».proof.Defs
import proofs.«115636_j33612414058531_1_alg».proof.Proof.Gen.Kernel
import proofs.«115636_j33612414058531_1_alg».proof.Proof.Gen.KernelIdeal
import proofs.«115636_j33612414058531_1_alg».proof.Proof.Gen.ReferenceIdeal
import proofs.«115636_j33612414058531_1_alg».proof.Proof.Gen.Pre_finite_inputs
import proofs.«115636_j33612414058531_1_alg».proof.Proof.K.Frame
import proofs.«115636_j33612414058531_1_alg».proof.Proof.KI.Frame
import proofs.«115636_j33612414058531_1_alg».proof.Proof.KI.KernelValue
import proofs.«115636_j33612414058531_1_alg».proof.Proof.RefValue
import Idealize.ShloMosaic.Adequacy
import Idealize.ShloMosaic.Init

noncomputable section

namespace Cert.Proof

open Idealize.ShloMosaic Idealize.SL.Sem

/-- The word-level kernel runs to the end with its arguments unchanged. -/
theorem frame_p : Cert.frame_Kernel := fun m ρ _ => Cert.Kernel.Hand.frame m ρ

/-- So does the idealized kernel. -/
theorem frame_pi : Cert.frame_KernelIdeal := fun m ρ _ => Cert.KernelIdeal.Hand.frame m ρ

/-- And the reference: its run with the result dropped. -/
theorem frame_ri : Cert.frame_ReferenceIdeal := Cert.ReferenceIdeal.RefValue.frame_ri

/-- The idealization rewrote nothing. -/
theorem preserves : Cert.preserves_Kernel_KernelIdeal := trivial

/-- Both idealized programs end with the loss of their (equal) arguments. -/
theorem algebraic : Cert.algebraic_KernelIdeal_ReferenceIdeal := by
  intro m ρ m' ρ' _ hagree
  refine ⟨fun c => Cert.PairRank.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.HandValue.run_loss m ρ, ?_⟩
  refine (θ_run Cert.ReferenceIdeal.defs _ _).mono (fun _ h c => ⟨(h c).1.trans ?_, (h c).2⟩)
    (Cert.ReferenceIdeal.RefValue.run_loss m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
